-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S8192x32x32 : Shape := ⟨3, ![8192, 32, 32]⟩
abbrev S4096 : Shape := ⟨1, ![4096]⟩
abbrev S8192 : Shape := ⟨1, ![8192]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S8192x32x32 : S_.BroadcastsInDim S8192x32x32 (![] : Fin 0 → Fin S8192x32x32.rank)
  reducesTo_S8192x32x32_S_d0_1_2 : S8192x32x32.ReducesTo [0, 1, 2] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S8192x32x32 .f32) (main_arg2 : FVec F S4096 .f32) (main_arg3 : IVec S8192 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S8192x32x32 .f32 := Host.absf main_arg1
  let main_cst_0 : FVec F S_ .f32 := constant S_ .f32 0x7F800000#32
  let main_v5 : FVec F S8192x32x32 .f32 := broadcastInDim S8192x32x32 ![] bcast_S_S8192x32x32 main_cst_0
  let main_v6 : IVec S8192x32x32 1 := cmpf .olt main_v4 main_v5
  let main_c_1 : IVec S_ 1 := constantI S_ 1 1#1
  let main_v7 : IVec S_ 1 := (fun x v => Host.reduce IntOp.andi x v reducesTo_S8192x32x32_S_d0_1_2 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S8192x32x32 : Shape := ⟨3, ![8192, 32, 32]⟩
abbrev S4096 : Shape := ⟨1, ![4096]⟩
abbrev S8192 : Shape := ⟨1, ![8192]⟩
abbrev S_ : Shape := ⟨0, ![]⟩
abbrev S32 : Shape := ⟨1, ![32]⟩
abbrev S8192x1x1 : Shape := ⟨3, ![8192, 1, 1]⟩
abbrev S1x32x1 : Shape := ⟨3, ![1, 32, 1]⟩
abbrev S8192x32x1 : Shape := ⟨3, ![8192, 32, 1]⟩
abbrev S1x1x32 : Shape := ⟨3, ![1, 1, 32]⟩
abbrev S8192x1x32 : Shape := ⟨3, ![8192, 1, 32]⟩
abbrev S8192x32x32x1 : Shape := ⟨4, ![8192, 32, 32, 1]⟩
abbrev S8192x32x32x2 : Shape := ⟨4, ![8192, 32, 32, 2]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 88
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S8192x32x32, .f32⟩
  | .hbm, ⟨2, _⟩ => ⟨S4096, .f32⟩
  | .hbm, ⟨3, _⟩ => ⟨S8192, .i32⟩
  | .hbm, ⟨4, _⟩ => ⟨S_, .i32⟩
  | .hbm, ⟨5, _⟩ => ⟨S_, .i32⟩
  | .hbm, ⟨6, _⟩ => ⟨S8192, .i32⟩
  | .hbm, ⟨7, _⟩ => ⟨S8192, .i32⟩
  | .hbm, ⟨8, _⟩ => ⟨S8192, .i32⟩
  | .hbm, ⟨9, _⟩ => ⟨S_, .i32⟩
  | .hbm, ⟨10, _⟩ => ⟨S8192, .i32⟩
  | .hbm, ⟨11, _⟩ => ⟨S8192, .i1⟩
  | .hbm, ⟨12, _⟩ => ⟨S8192, .i32⟩
  | .hbm, ⟨13, _⟩ => ⟨S8192, .i32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S8192, .i1⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S8192, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S8192, .i32⟩
  | .hbm, ⟨29, _⟩ => ⟨S8192, .i32⟩
  | .hbm, ⟨30, _⟩ => ⟨S_, .i32⟩
  | .hbm, ⟨31, _⟩ => ⟨S8192, .i32⟩
  | .hbm, ⟨32, _⟩ => ⟨S8192, .i1⟩
  | .hbm, ⟨33, _⟩ => ⟨S_, .i32⟩
  | .hbm, ⟨34, _⟩ => ⟨S8192, .i32⟩
  | .hbm, ⟨35, _⟩ => ⟨S8192, .i1⟩
  | .hbm, ⟨36, _⟩ => ⟨S_, .i32⟩
  | .hbm, ⟨37, _⟩ => ⟨S_, .i1⟩
  | .hbm, ⟨38, _⟩ => ⟨S8192, .i1⟩
  | .hbm, ⟨39, _⟩ => ⟨S8192, .i1⟩
  | .hbm, ⟨40, _⟩ => ⟨S8192, .i1⟩
  | .hbm, ⟨41, _⟩ => ⟨S8192, .i32⟩
  | .hbm, ⟨42, _⟩ => ⟨S8192, .i32⟩
  | .hbm, ⟨43, _⟩ => ⟨S8192, .i32⟩
  | .hbm, ⟨44, _⟩ => ⟨S32, .i32⟩
  | .hbm, ⟨45, _⟩ => ⟨S8192x1x1, .i32⟩
  | .hbm, ⟨46, _⟩ => ⟨S_, .i32⟩
  | .hbm, ⟨47, _⟩ => ⟨S8192x1x1, .i32⟩
  | .hbm, ⟨48, _⟩ => ⟨S8192x1x1, .i32⟩
  | .hbm, ⟨49, _⟩ => ⟨S1x32x1, .i32⟩
  | .hbm, ⟨50, _⟩ => ⟨S8192x32x1, .i32⟩
  | .hbm, ⟨51, _⟩ => ⟨S8192x32x1, .i32⟩
  | .hbm, ⟨52, _⟩ => ⟨S8192x32x1, .i32⟩
  | .hbm, ⟨53, _⟩ => ⟨S8192x1x1, .i32⟩
  | .hbm, ⟨54, _⟩ => ⟨S_, .i32⟩
  | .hbm, ⟨55, _⟩ => ⟨S8192x1x1, .i32⟩
  | .hbm, ⟨56, _⟩ => ⟨S8192x1x1, .i32⟩
  | .hbm, ⟨57, _⟩ => ⟨S1x1x32, .i32⟩
  | .hbm, ⟨58, _⟩ => ⟨S8192x1x32, .i32⟩
  | .hbm, ⟨59, _⟩ => ⟨S8192x1x32, .i32⟩
  | .hbm, ⟨60, _⟩ => ⟨S8192x1x32, .i32⟩
  | .hbm, ⟨61, _⟩ => ⟨S8192x32x32, .f32⟩
  | .hbm, ⟨62, _⟩ => ⟨S_, .f32⟩
  | .hbm, ⟨63, _⟩ => ⟨S4096x4096, .f32⟩
  | .hbm, ⟨64, _⟩ => ⟨S_, .i32⟩
  | .hbm, ⟨65, _⟩ => ⟨S8192x32x1, .i32⟩
  | .hbm, ⟨66, _⟩ => ⟨S8192x32x1, .i1⟩
  | .hbm, ⟨67, _⟩ => ⟨S_, .i32⟩
  | .hbm, ⟨68, _⟩ => ⟨S8192x32x1, .i32⟩
  | .hbm, ⟨69, _⟩ => ⟨S8192x32x1, .i32⟩
  | .hbm, ⟨70, _⟩ => ⟨S8192x32x1, .i32⟩
  | .hbm, ⟨71, _⟩ => ⟨S_, .i32⟩
  | .hbm, ⟨72, _⟩ => ⟨S8192x1x32, .i32⟩
  | .hbm, ⟨73, _⟩ => ⟨S8192x1x32, .i1⟩
  | .hbm, ⟨74, _⟩ => ⟨S_, .i32⟩
  | .hbm, ⟨75, _⟩ => ⟨S8192x1x32, .i32⟩
  | .hbm, ⟨76, _⟩ => ⟨S8192x1x32, .i32⟩
  | .hbm, ⟨77, _⟩ => ⟨S8192x1x32, .i32⟩
  | .hbm, ⟨78, _⟩ => ⟨S8192x32x32, .i32⟩
  | .hbm, ⟨79, _⟩ => ⟨S8192x32x32, .i32⟩
  | .hbm, ⟨80, _⟩ => ⟨S8192x32x32x1, .i32⟩
  | .hbm, ⟨81, _⟩ => ⟨S8192x32x32x1, .i32⟩
  | .hbm, ⟨82, _⟩ => ⟨S8192x32x32x2, .i32⟩
  | .hbm, ⟨83, _⟩ => ⟨S4096x4096, .f32⟩
  | .hbm, ⟨84, _⟩ => ⟨S4096x4096, .bf16⟩
  | .hbm, ⟨85, _⟩ => ⟨S4096x4096, .bf16⟩
  | .hbm, ⟨86, _⟩ => ⟨S1x4096, .f32⟩
  | .hbm, ⟨87, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v0 : Ref sig .tc := ⟨.hbm, 21, rfl⟩
abbrev main_c_0 : Ref sig .tc := ⟨.hbm, 22, rfl⟩
abbrev main_call1_v0 : Ref sig .tc := ⟨.hbm, 23, rfl⟩
abbrev main_call1_c : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_c_1 : Ref sig .tc := ⟨.hbm, 30, rfl⟩
abbrev main_call1_v5 : Ref sig .tc := ⟨.hbm, 31, rfl⟩
abbrev main_call1_v6 : Ref sig .tc := ⟨.hbm, 32, rfl⟩
abbrev main_call1_c_2 : Ref sig .tc := ⟨.hbm, 33, rfl⟩
abbrev main_call1_v7 : Ref sig .tc := ⟨.hbm, 34, rfl⟩
abbrev main_call1_v8 : Ref sig .tc := ⟨.hbm, 35, rfl⟩
abbrev main_call1_c_3 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_v1 : Ref sig .tc := ⟨.hbm, 43, rfl⟩
abbrev main_v2 : Ref sig .tc := ⟨.hbm, 44, rfl⟩
abbrev main_v3 : Ref sig .tc := ⟨.hbm, 45, rfl⟩
abbrev main_c_1 : Ref sig .tc := ⟨.hbm, 46, rfl⟩
abbrev main_v4 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_c_2 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_cst : Ref sig .tc := ⟨.hbm, 62, rfl⟩
abbrev main_v18 : Ref sig .tc := ⟨.hbm, 63, rfl⟩
abbrev main_c_3 : Ref sig .tc := ⟨.hbm, 64, rfl⟩
abbrev main_v19 : Ref sig .tc := ⟨.hbm, 65, rfl⟩
abbrev main_v20 : Ref sig .tc := ⟨.hbm, 66, rfl⟩
abbrev main_c_4 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_c_5 : Ref sig .tc := ⟨.hbm, 71, rfl⟩
abbrev main_v24 : Ref sig .tc := ⟨.hbm, 72, rfl⟩
abbrev main_v25 : Ref sig .tc := ⟨.hbm, 73, rfl⟩
abbrev main_c_6 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S8192 : S_.BroadcastsInDim S8192 (![] : Fin 0 → Fin S8192.rank)
  bcast_S8192_S8192x1x1_0 : S8192.BroadcastsInDim S8192x1x1 (![0] : Fin 1 → Fin S8192x1x1.rank)
  bcast_S_S8192x1x1 : S_.BroadcastsInDim S8192x1x1 (![] : Fin 0 → Fin S8192x1x1.rank)
  bcast_S32_S1x32x1_1 : S32.BroadcastsInDim S1x32x1 (![1] : Fin 1 → Fin S1x32x1.rank)
  bcast_S8192x1x1_S8192x32x1_0_1_2 : S8192x1x1.BroadcastsInDim S8192x32x1 (![0, 1, 2] : Fin 3 → Fin S8192x32x1.rank)
  bcast_S1x32x1_S8192x32x1_0_1_2 : S1x32x1.BroadcastsInDim S8192x32x1 (![0, 1, 2] : Fin 3 → Fin S8192x32x1.rank)
  bcast_S32_S1x1x32_2 : S32.BroadcastsInDim S1x1x32 (![2] : Fin 1 → Fin S1x1x32.rank)
  bcast_S8192x1x1_S8192x1x32_0_1_2 : S8192x1x1.BroadcastsInDim S8192x1x32 (![0, 1, 2] : Fin 3 → Fin S8192x1x32.rank)
  bcast_S1x1x32_S8192x1x32_0_1_2 : S1x1x32.BroadcastsInDim S8192x1x32 (![0, 1, 2] : Fin 3 → Fin S8192x1x32.rank)
  transposes_S8192x32x32_S8192x32x32_0_2_1 : S8192x32x32.Transposes [0, 2, 1] S8192x32x32
  bcast_S_S4096x4096 : S_.BroadcastsInDim S4096x4096 (![] : Fin 0 → Fin S4096x4096.rank)
  bcast_S_S8192x32x1 : S_.BroadcastsInDim S8192x32x1 (![] : Fin 0 → Fin S8192x32x1.rank)
  bcast_S_S8192x1x32 : S_.BroadcastsInDim S8192x1x32 (![] : Fin 0 → Fin S8192x1x32.rank)
  bcast_S8192x32x1_S8192x32x32_0_1_2 : S8192x32x1.BroadcastsInDim S8192x32x32 (![0, 1, 2] : Fin 3 → Fin S8192x32x32.rank)
  bcast_S8192x1x32_S8192x32x32_0_1_2 : S8192x1x32.BroadcastsInDim S8192x32x32 (![0, 1, 2] : Fin 3 → Fin S8192x32x32.rank)
  bcast_S8192x32x32_S8192x32x32x1_0_1_2 : S8192x32x32.BroadcastsInDim S8192x32x32x1 (![0, 1, 2] : Fin 3 → Fin S8192x32x32x1.rank)
  concatenates_S8192x32x32x1_S8192x32x32x1_S8192x32x32x2_d3 : Shape.Concatenates [S8192x32x32x1, S8192x32x32x1] S8192x32x32x2 3
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  scatter_S4096x4096_S8192x32x32x2_S8192x32x32_n_01_01_3_wf : ScatterDims.WF S4096x4096 S8192x32x32x2 S8192x32x32 [] [0, 1] [0, 1] 3
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def scatter_S4096x4096_S8192x32x32x2_S8192x32x32_n_01_01_3 : ScatterDims S4096x4096 S8192x32x32x2 S8192x32x32 where
  updateWindowDims := []
  insertedWindowDims := [0, 1]
  scatterDimsToOperandDims := [0, 1]
  indexVectorDim := 3
  wf := scatter_S4096x4096_S8192x32x32x2_S8192x32x32_n_01_01_3_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v35) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v38) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S8192x32x32 : Shape := ⟨3, ![8192, 32, 32]⟩
abbrev S4096 : Shape := ⟨1, ![4096]⟩
abbrev S8192 : Shape := ⟨1, ![8192]⟩
abbrev S_ : Shape := ⟨0, ![]⟩
abbrev S8192x1x1 : Shape := ⟨3, ![8192, 1, 1]⟩
abbrev S32 : Shape := ⟨1, ![32]⟩
abbrev S1x32x1 : Shape := ⟨3, ![1, 32, 1]⟩
abbrev S8192x32x1 : Shape := ⟨3, ![8192, 32, 1]⟩
abbrev S1x1x32 : Shape := ⟨3, ![1, 1, 32]⟩
abbrev S8192x1x32 : Shape := ⟨3, ![8192, 1, 32]⟩
abbrev S8192x32x32x1 : Shape := ⟨4, ![8192, 32, 32, 1]⟩
abbrev S8192x32x32x2 : Shape := ⟨4, ![8192, 32, 32, 2]⟩
abbrev S1x4096 : Shape := ⟨2, ![1, 4096]⟩

abbrev nBuf : Space → Nat
  | .hbm => 89
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S8192x32x32, .f32⟩
  | .hbm, ⟨2, _⟩ => ⟨S4096, .f32⟩
  | .hbm, ⟨3, _⟩ => ⟨S8192, .i32⟩
  | .hbm, ⟨4, _⟩ => ⟨S_, .i32⟩
  | .hbm, ⟨5, _⟩ => ⟨S_, .i32⟩
  | .hbm, ⟨6, _⟩ => ⟨S8192, .i32⟩
  | .hbm, ⟨7, _⟩ => ⟨S8192, .i32⟩
  | .hbm, ⟨8, _⟩ => ⟨S8192, .i32⟩
  | .hbm, ⟨9, _⟩ => ⟨S_, .i32⟩
  | .hbm, ⟨10, _⟩ => ⟨S8192, .i32⟩
  | .hbm, ⟨11, _⟩ => ⟨S8192, .i1⟩
  | .hbm, ⟨12, _⟩ => ⟨S8192, .i32⟩
  | .hbm, ⟨13, _⟩ => ⟨S8192, .i32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S8192, .i1⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S8192, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S8192, .i32⟩
  | .hbm, ⟨29, _⟩ => ⟨S8192, .i32⟩
  | .hbm, ⟨30, _⟩ => ⟨S_, .i32⟩
  | .hbm, ⟨31, _⟩ => ⟨S8192, .i32⟩
  | .hbm, ⟨32, _⟩ => ⟨S8192, .i1⟩
  | .hbm, ⟨33, _⟩ => ⟨S_, .i32⟩
  | .hbm, ⟨34, _⟩ => ⟨S8192, .i32⟩
  | .hbm, ⟨35, _⟩ => ⟨S8192, .i1⟩
  | .hbm, ⟨36, _⟩ => ⟨S_, .i32⟩
  | .hbm, ⟨37, _⟩ => ⟨S_, .i1⟩
  | .hbm, ⟨38, _⟩ => ⟨S8192, .i1⟩
  | .hbm, ⟨39, _⟩ => ⟨S8192, .i1⟩
  | .hbm, ⟨40, _⟩ => ⟨S8192, .i1⟩
  | .hbm, ⟨41, _⟩ => ⟨S8192, .i32⟩
  | .hbm, ⟨42, _⟩ => ⟨S8192, .i32⟩
  | .hbm, ⟨43, _⟩ => ⟨S8192, .i32⟩
  | .hbm, ⟨44, _⟩ => ⟨S8192x1x1, .i32⟩
  | .hbm, ⟨45, _⟩ => ⟨S_, .i32⟩
  | .hbm, ⟨46, _⟩ => ⟨S8192x1x1, .i32⟩
  | .hbm, ⟨47, _⟩ => ⟨S8192x1x1, .i32⟩
  | .hbm, ⟨48, _⟩ => ⟨S32, .i32⟩
  | .hbm, ⟨49, _⟩ => ⟨S1x32x1, .i32⟩
  | .hbm, ⟨50, _⟩ => ⟨S8192x32x1, .i32⟩
  | .hbm, ⟨51, _⟩ => ⟨S8192x32x1, .i32⟩
  | .hbm, ⟨52, _⟩ => ⟨S8192x32x1, .i32⟩
  | .hbm, ⟨53, _⟩ => ⟨S8192x1x1, .i32⟩
  | .hbm, ⟨54, _⟩ => ⟨S_, .i32⟩
  | .hbm, ⟨55, _⟩ => ⟨S8192x1x1, .i32⟩
  | .hbm, ⟨56, _⟩ => ⟨S8192x1x1, .i32⟩
  | .hbm, ⟨57, _⟩ => ⟨S32, .i32⟩
  | .hbm, ⟨58, _⟩ => ⟨S1x1x32, .i32⟩
  | .hbm, ⟨59, _⟩ => ⟨S8192x1x32, .i32⟩
  | .hbm, ⟨60, _⟩ => ⟨S8192x1x32, .i32⟩
  | .hbm, ⟨61, _⟩ => ⟨S8192x1x32, .i32⟩
  | .hbm, ⟨62, _⟩ => ⟨S_, .f32⟩
  | .hbm, ⟨63, _⟩ => ⟨S4096x4096, .f32⟩
  | .hbm, ⟨64, _⟩ => ⟨S_, .i32⟩
  | .hbm, ⟨65, _⟩ => ⟨S8192x32x1, .i32⟩
  | .hbm, ⟨66, _⟩ => ⟨S8192x32x1, .i1⟩
  | .hbm, ⟨67, _⟩ => ⟨S_, .i32⟩
  | .hbm, ⟨68, _⟩ => ⟨S8192x32x1, .i32⟩
  | .hbm, ⟨69, _⟩ => ⟨S8192x32x1, .i32⟩
  | .hbm, ⟨70, _⟩ => ⟨S8192x32x1, .i32⟩
  | .hbm, ⟨71, _⟩ => ⟨S_, .i32⟩
  | .hbm, ⟨72, _⟩ => ⟨S8192x1x32, .i32⟩
  | .hbm, ⟨73, _⟩ => ⟨S8192x1x32, .i1⟩
  | .hbm, ⟨74, _⟩ => ⟨S_, .i32⟩
  | .hbm, ⟨75, _⟩ => ⟨S8192x1x32, .i32⟩
  | .hbm, ⟨76, _⟩ => ⟨S8192x1x32, .i32⟩
  | .hbm, ⟨77, _⟩ => ⟨S8192x1x32, .i32⟩
  | .hbm, ⟨78, _⟩ => ⟨S8192x32x32, .i32⟩
  | .hbm, ⟨79, _⟩ => ⟨S8192x32x32, .i32⟩
  | .hbm, ⟨80, _⟩ => ⟨S8192x32x32x1, .i32⟩
  | .hbm, ⟨81, _⟩ => ⟨S8192x32x32x1, .i32⟩
  | .hbm, ⟨82, _⟩ => ⟨S8192x32x32x2, .i32⟩
  | .hbm, ⟨83, _⟩ => ⟨S4096x4096, .f32⟩
  | .hbm, ⟨84, _⟩ => ⟨S4096x4096, .f32⟩
  | .hbm, ⟨85, _⟩ => ⟨S4096x4096, .f32⟩
  | .hbm, ⟨86, _⟩ => ⟨S1x4096, .f32⟩
  | .hbm, ⟨87, _⟩ => ⟨S4096x4096, .f32⟩
  | .hbm, ⟨88, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v0 : Ref sig .tc := ⟨.hbm, 21, rfl⟩
abbrev main_c_0 : Ref sig .tc := ⟨.hbm, 22, rfl⟩
abbrev main_call1_v0 : Ref sig .tc := ⟨.hbm, 23, rfl⟩
abbrev main_call1_c : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_c_1 : Ref sig .tc := ⟨.hbm, 30, rfl⟩
abbrev main_call1_v5 : Ref sig .tc := ⟨.hbm, 31, rfl⟩
abbrev main_call1_v6 : Ref sig .tc := ⟨.hbm, 32, rfl⟩
abbrev main_call1_c_2 : Ref sig .tc := ⟨.hbm, 33, rfl⟩
abbrev main_call1_v7 : Ref sig .tc := ⟨.hbm, 34, rfl⟩
abbrev main_call1_v8 : Ref sig .tc := ⟨.hbm, 35, rfl⟩
abbrev main_call1_c_3 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_v1 : Ref sig .tc := ⟨.hbm, 43, rfl⟩
abbrev main_v2 : Ref sig .tc := ⟨.hbm, 44, rfl⟩
abbrev main_c_1 : Ref sig .tc := ⟨.hbm, 45, rfl⟩
abbrev main_v3 : Ref sig .tc := ⟨.hbm, 46, rfl⟩
abbrev main_v4 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_c_2 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_cst : Ref sig .tc := ⟨.hbm, 62, rfl⟩
abbrev main_v18 : Ref sig .tc := ⟨.hbm, 63, rfl⟩
abbrev main_c_3 : Ref sig .tc := ⟨.hbm, 64, rfl⟩
abbrev main_v19 : Ref sig .tc := ⟨.hbm, 65, rfl⟩
abbrev main_v20 : Ref sig .tc := ⟨.hbm, 66, rfl⟩
abbrev main_c_4 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_c_5 : Ref sig .tc := ⟨.hbm, 71, rfl⟩
abbrev main_v24 : Ref sig .tc := ⟨.hbm, 72, rfl⟩
abbrev main_v25 : Ref sig .tc := ⟨.hbm, 73, rfl⟩
abbrev main_c_6 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1x1_0 : S8192.BroadcastsInDim S8192x1x1 (![0] : Fin 1 → Fin S8192x1x1.rank)
  bcast_S_S8192x1x1 : S_.BroadcastsInDim S8192x1x1 (![] : Fin 0 → Fin S8192x1x1.rank)
  bcast_S32_S1x32x1_1 : S32.BroadcastsInDim S1x32x1 (![1] : Fin 1 → Fin S1x32x1.rank)
  bcast_S8192x1x1_S8192x32x1_0_1_2 : S8192x1x1.BroadcastsInDim S8192x32x1 (![0, 1, 2] : Fin 3 → Fin S8192x32x1.rank)
  bcast_S1x32x1_S8192x32x1_0_1_2 : S1x32x1.BroadcastsInDim S8192x32x1 (![0, 1, 2] : Fin 3 → Fin S8192x32x1.rank)
  bcast_S32_S1x1x32_2 : S32.BroadcastsInDim S1x1x32 (![2] : Fin 1 → Fin S1x1x32.rank)
  bcast_S8192x1x1_S8192x1x32_0_1_2 : S8192x1x1.BroadcastsInDim S8192x1x32 (![0, 1, 2] : Fin 3 → Fin S8192x1x32.rank)
  bcast_S1x1x32_S8192x1x32_0_1_2 : S1x1x32.BroadcastsInDim S8192x1x32 (![0, 1, 2] : Fin 3 → Fin S8192x1x32.rank)
  bcast_S_S4096x4096 : S_.BroadcastsInDim S4096x4096 (![] : Fin 0 → Fin S4096x4096.rank)
  bcast_S_S8192x32x1 : S_.BroadcastsInDim S8192x32x1 (![] : Fin 0 → Fin S8192x32x1.rank)
  bcast_S_S8192x1x32 : S_.BroadcastsInDim S8192x1x32 (![] : Fin 0 → Fin S8192x1x32.rank)
  bcast_S8192x32x1_S8192x32x32_0_1_2 : S8192x32x1.BroadcastsInDim S8192x32x32 (![0, 1, 2] : Fin 3 → Fin S8192x32x32.rank)
  bcast_S8192x1x32_S8192x32x32_0_1_2 : S8192x1x32.BroadcastsInDim S8192x32x32 (![0, 1, 2] : Fin 3 → Fin S8192x32x32.rank)
  bcast_S8192x32x32_S8192x32x32x1_0_1_2 : S8192x32x32.BroadcastsInDim S8192x32x32x1 (![0, 1, 2] : Fin 3 → Fin S8192x32x32x1.rank)
  concatenates_S8192x32x32x1_S8192x32x32x1_S8192x32x32x2_d3 : Shape.Concatenates [S8192x32x32x1, S8192x32x32x1] S8192x32x32x2 3
  transposes_S4096x4096_S4096x4096_1_0 : S4096x4096.Transposes [1, 0] S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  scatter_S4096x4096_S8192x32x32x2_S8192x32x32_n_01_01_3_wf : ScatterDims.WF S4096x4096 S8192x32x32x2 S8192x32x32 [] [0, 1] [0, 1] 3
  dot_S4096x4096_S4096x4096_S4096x4096_1_0_0_1_n_n_wf : DotDims.WF S4096x4096 S4096x4096 S4096x4096 [1] [0] [0] [1] [] []

variable [Facts₀]

def scatter_S4096x4096_S8192x32x32x2_S8192x32x32_n_01_01_3 : ScatterDims S4096x4096 S8192x32x32x2 S8192x32x32 where
  updateWindowDims := []
  insertedWindowDims := [0, 1]
  scatterDimsToOperandDims := [0, 1]
  indexVectorDim := 3
  wf := scatter_S4096x4096_S8192x32x32x2_S8192x32x32_n_01_01_3_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.KerPieces.lean ====
/-
  What one grid point leaves behind, read as values. The kernel body keeps a 1024 x 1024 accumulator between
  grid points. At a point whose contraction coordinate is 0 it first overwrites the accumulator with zeros; at
  every point it adds to the accumulator the product of the point's block of the left operand with the point's
  block of the right operand; at a point whose contraction coordinate is 3 it also stores, into the output
  block, the accumulator plus the bias row repeated down the rows. Each lemma below says that what a point
  leaves in the accumulator (or in the output block) is exactly that arithmetic applied to the blocks the point
  was given: a whole-buffer store read back through a whole-buffer load is the stored value.
-/
import proofs.«168420_j48112223650319_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.KVal

open Cert.KernelIdeal Cert.KernelIdeal.Gen

variable {F : FTy → Type} [FloatOps F]

/-- The two zero offsets of a whole-buffer access, as the constant-zero function. -/
theorem hz : (![0, 0] : Fin 2 → Nat) = fun _ => 0 := funext fun a => by fin_cases a <;> rfl

/-- First contraction step: the accumulator ends at (zeros + left block times right block). -/
theorem acc_first (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i) (x0 : Vec F S1024x1024 .bf16) (x1 : Vec F S1024x1024 .bf16) (x2 : Vec F S1x1024 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A middle contraction step: the accumulator ends at (what it held + left block times right block). -/
theorem acc_middle (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i) (x0 : Vec F S1024x1024 .bf16) (x1 : Vec F S1024x1024 .bf16) (x2 : Vec F S1x1024 .f32) (xs0 : Vec F S1024x1024 .f32) :
    sout0_B_0 c i a3 h3 a4 h4 a5 h5 a6 h6 a7 h7 hc0 hc1 x0 x1 x2 xs0 = k0_pay2 xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero hz]
  simp only [View.readAt_eq_ld, h3.read_unread, h4.read_unread, h7.read_unread, View.ld_unit_zero (S := S1024x1024) hz]

/-- The last contraction step leaves the accumulator as a middle step does. -/
theorem acc_last (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i) (x0 : Vec F S1024x1024 .bf16) (x1 : Vec F S1024x1024 .bf16) (x2 : Vec F S1x1024 .f32) (xs0 : Vec F S1024x1024 .f32) :
    sout0_C_0 c i a3 h3 a4 h4 a5 h5 a6 h6 a7 h7 hc0 hc1 x0 x1 x2 xs0 = k0_pay2 xs0 x0 x1 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h7.read_unread, View.ld_unit_zero (S := S1024x1024) hz]

/-- The last contraction step stores into the output block the new accumulator plus the broadcast bias row. -/
theorem out_last (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i) (x0 : Vec F S1024x1024 .bf16) (x1 : Vec F S1024x1024 .bf16) (x2 : Vec F S1x1024 .f32) (xs0 : Vec F S1024x1024 .f32) :
    out0_C_3 c i a3 h3 a4 h4 a5 h5 a6 h6 a7 h7 hc0 hc1 x0 x1 x2 xs0 = k0_pay3 (k0_pay2 xs0 x0 x1) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz, View.readCov_unit_zero (S := S1024x1024) _ hz]
  simp only [View.readAt_eq_ld, h3.read_unread, h4.read_unread, h5.read_unread, h7.read_unread,
    View.ld_unit_zero (S := S1024x1024) hz, View.ld_unit_zero (S := S1x1024) hz]

end Cert.KernelIdeal.KVal

end
-- ==== Proof.KerSteps.lean ====
/-
  The accumulator and the output block after a grid point, as the point's arithmetic applied to what the point
  before left. Point t has contraction coordinate t mod 4. If it is 0 the accumulator restarts: it ends at
  zeros + (left block * right block). Otherwise it ends at (what point t - 1 left) + (left block * right block).
  If it is 3 the output block is the accumulator just computed plus the bias row.
-/
import proofs.«168420_j48112223650319_1_alg».proof.Proof.Gen.KernelIdeal.Frame
import proofs.«168420_j48112223650319_1_alg».proof.Proof.KerPieces

noncomputable section

open Idealize.ShloMosaic Idealize.ShloMosaic.TcCoe Idealize.SL.Sem

namespace Cert.KernelIdeal.KVal

open Cert.KernelIdeal Cert.KernelIdeal.Gen

variable {F : FTy → Type} [FloatOps F]
variable (m : (ℓ : Loc nD τ sig) → Buf (Elt F) ℓ)

/-- At the first contraction step the accumulator restarts from zeros. -/
theorem scratch_first (c : Dev nD) (t : Fin cfg0.N) (h0 : t.val % 4 = 0) (h1 : ¬t.val % 4 = 3) :
    (outsAt0 m c t.val t.isLt).2 = k0_pay2 (k0_pay1 (F := F)) (iblk m c 0 t) (iblk m c 1 t) := by
  rw [outsAt0_A m c t h0 h1]
  dsimp only
  exact acc_first (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- At a middle contraction step the accumulator adds the point's product to what the point before left. -/
theorem scratch_middle (c : Dev nD) (t : Fin cfg0.N) (h0 : ¬t.val % 4 = 0) (h1 : ¬t.val % 4 = 3) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  exact acc_middle (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- At the last contraction step the accumulator does the same; -/
theorem scratch_last (c : Dev nD) (t : Fin cfg0.N) (h0 : ¬t.val % 4 = 0) (h1 : t.val % 4 = 3) :
    (outsAt0 m c t.val t.isLt).2 = k0_pay2 (outsAt0 m c (t.val - 1) (Nat.lt_of_le_of_lt (Nat.sub_le _ _) t.isLt)).2 (iblk m c 0 t) (iblk m c 1 t) := by
  rw [outsAt0_C m c t h0 h1]
  dsimp only
  exact acc_last (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-- and the output block is that new accumulator plus the bias row. -/
theorem out_of_scratch (c : Dev nD) (t : Fin cfg0.N) (h0 : ¬t.val % 4 = 0) (h1 : t.val % 4 = 3) :
    (outsAt0 m c t.val t.isLt).1 = k0_pay3 (outsAt0 m c t.val t.isLt).2 (iblk m c 2 t) := by
  rw [scratch_last m c t h0 h1, outsAt0_C m c t h0 h1]
  dsimp only
  exact out_last (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

end Cert.KernelIdeal.KVal

end
-- ==== Proof.KerPayload.lean ====
/-
  The arithmetic of one grid point, read entry by entry over the extended reals. A matrix product into a zero
  accumulator is, at entry (p, q), the plain sum over the contracted coordinate of left(p, k) * right(k, q); the
  zero block reads 0 everywhere; the accumulation step adds that sum to what the accumulator held; the output step
  adds bias(0, q) to the accumulator's entry (p, q). Changes of float format are the identity here, so no rounding
  enters.
-/
import proofs.«168420_j48112223650319_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

namespace Cert.KernelIdeal.KVal

open Cert.KernelIdeal Cert.KernelIdeal.Gen

open Idealize.ShloMosaic.ValueIdx

/-- The contraction of a 1024 x 1024 by 1024 x 1024 product, into a zero accumulator, at entry (p, q): the sum
    over k of left(p, k) * right(k, q). -/
theorem matmul_zero_apply (prec : Option ContractPrecision) (A B : FVec Ideal S1024x1024 .bf16) (p q : Fin 1024) :
    FloatOps.matmul dot_S1024x1024_S1024x1024_S1024x1024_1_0_0_1_n_n prec A B (constant S1024x1024 .f32 0x00000000#32) (ix2 p q)
      = ∑ k : Fin 1024, A (ix2 p k) * B (ix2 k q) := by
  rw [Ideal.matmul_constant_zero_apply,
    ← Equiv.sum_comp (contrEquiv1 dot_S1024x1024_S1024x1024_S1024x1024_1_0_0_1_n_n 1024 rfl rfl).symm]
  refine Finset.sum_congr rfl fun k _ => ?_
  have ck := contrEquiv1_symm_val dot_S1024x1024_S1024x1024_S1024x1024_1_0_0_1_n_n 1024 rfl rfl k
  have l2 : dot_S1024x1024_S1024x1024_S1024x1024_1_0_0_1_n_n.lhsIdx (ix2 p q)
      ((contrEquiv1 _ 1024 rfl rfl).symm k) = ix2 p k := by
    funext ax; apply Fin.ext
    match ax with
    | ⟨0, _⟩ => simp [DotDims.lhsIdx, dot_S1024x1024_S1024x1024_S1024x1024_1_0_0_1_n_n]; rfl
    | ⟨1, _⟩ => simp [DotDims.lhsIdx, dot_S1024x1024_S1024x1024_S1024x1024_1_0_0_1_n_n]; exact ck
  have r2 : dot_S1024x1024_S1024x1024_S1024x1024_1_0_0_1_n_n.rhsIdx (ix2 p q)
      ((contrEquiv1 _ 1024 rfl rfl).symm k) = ix2 k q := by
    funext ax; apply Fin.ext
    match ax with
    | ⟨0, _⟩ => simp [DotDims.rhsIdx, dot_S1024x1024_S1024x1024_S1024x1024_1_0_0_1_n_n]; exact ck
    | ⟨1, _⟩ => simp [DotDims.rhsIdx, dot_S1024x1024_S1024x1024_S1024x1024_1_0_0_1_n_n]; rfl
  rw [l2, r2]

/-- The zero block reads 0 at every entry. -/
theorem pay_zero_apply (j : S1024x1024.Idx) : k0_pay1 (F := Ideal) j = 0 := by
  unfold k0_pay1
  simp only [shapeCast_self]
  exact Ideal.ofBits_zero_f32

/-- The accumulation step at entry (p, q): what the accumulator held there plus the point's partial contraction. -/
theorem pay_acc_apply (acc : Vec Ideal S1024x1024 .f32) (A B : Vec Ideal S1024x1024 .bf16) (p q : Fin 1024) :
    k0_pay2 (F := Ideal) acc A B (ix2 p q) = acc (ix2 p q) + ∑ k : Fin 1024, A (ix2 p k) * B (ix2 k q) := by
  unfold k0_pay2
  simp only [shapeCast_self]
  exact congrArg (acc (ix2 p q) + ·) (matmul_zero_apply none A B p q)

/-- The output step at entry (p, q): the accumulator's entry plus the bias row's entry q. -/
theorem pay_out_apply (acc : Vec Ideal S1024x1024 .f32) (bias : Vec Ideal S1x1024 .f32) (p q : Fin 1024) :
    k0_pay3 (F := Ideal) acc bias (ix2 p q) = acc (ix2 p q) + bias (ix2 0 q) := by
  unfold k0_pay3
  simp only [shapeCast_self]
  refine congrArg (acc (ix2 p q) + ·) ?_
  refine broadcastTo_apply bias broadcasts_S1x1024_S1024x1024 (ix2 p q) (ix2 0 q) fun a => ?_
  match a with
  | ⟨0, _⟩ => rfl
  | ⟨1, _⟩ => rfl

end Cert.KernelIdeal.KVal

end
-- ==== Proof.Spec.lean ====
/-
  The one function both programs compute, stated with no program in sight: an affine map on rows.
  For a 4096×4096 array `x`, a 4096×4096 array `w` and a vector `b` of 4096 entries, entry (r, n) of the
  result is the contraction of row r of `x` with column n of `w`, plus `b n`:

      affine x w b r n = (∑ k, x (r, k) · w (k, n)) + b n        on the extended reals.

  Sums on the extended reals are sums in a commutative monoid, so any tiling or order of the 4096 terms gives this value.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-- The shape of `x`, of `w` and of the result. -/
abbrev SMat : Shape := ⟨2, ![4096, 4096]⟩

/-- Entry (r, n) of `x · w + b`: row r of `x` contracted with column n of `w`, plus `b n`. -/
def affine (x w : SMat.Idx → EReal) (b : Fin 4096 → EReal) (r n : Fin 4096) : EReal :=
  (∑ k : Fin 4096, x (ix2 r k) * w (ix2 k n)) + b n

/-- `x · w + b` as a whole array. -/
def affineArr (x w : SMat.Idx → EReal) (b : Fin 4096 → EReal) : SMat.Idx → EReal :=
  fun i => affine x w b (i 0) (i 1)

theorem affineArr_apply (x w : SMat.Idx → EReal) (b : Fin 4096 → EReal) (r n : Fin 4096) :
    affineArr x w b (ix2 r n) = affine x w b r n := rfl

end Cert.Spec

end
-- ==== Proof.LibTiledSum.lean ====
/-
  A sum taken tile by tile. A running total that starts at zero and, at step `n`, adds the `n`-th tile of `B`
  consecutive terms of a sequence `f`, holds after `T` steps the sum of the first `T * B` terms, in any commutative
  additive monoid: only associativity of `+` is used, so the statement holds on the extended reals with their
  infinities as it does on the reals. This is the law that joins a contraction accumulated block by block
  (a matrix product whose inner dimension is cut into `T` tiles of `B`) to the same contraction taken as one sum.
-/
import Mathlib.Algebra.BigOperators.Fin

open Finset

namespace Cert.TiledSum

variable {M : Type*} [AddCommMonoid M]

/-- After `n` steps the running total is the sum of the first `n * B` terms. -/
theorem acc_eq_sum_range (B : ℕ) (f : ℕ → M) (acc : ℕ → M) (h0 : acc 0 = 0)
    (hs : ∀ n, acc (n + 1) = acc n + ∑ j : Fin B, f (n * B + j.val)) :
    ∀ n, acc n = ∑ k ∈ range (n * B), f k
  | 0 => by rw [h0, Nat.zero_mul, range_zero, sum_empty]
  | n + 1 => by
    rw [hs n, acc_eq_sum_range B f acc h0 hs n, Nat.succ_mul, sum_range_add,
      Finset.sum_range (fun j => f (n * B + j))]

/-- The same total as a sum over the finite index type of all `T * B` terms. -/
theorem acc_eq_sum_fin (B : ℕ) (f : ℕ → M) (acc : ℕ → M) (h0 : acc 0 = 0)
    (hs : ∀ n, acc (n + 1) = acc n + ∑ j : Fin B, f (n * B + j.val)) (T : ℕ) :
    acc T = ∑ k : Fin (T * B), f k.val := by
  rw [acc_eq_sum_range B f acc h0 hs T, Finset.sum_range]

end Cert.TiledSum
-- ==== Proof.KerSum.lean ====
/-
  The contraction taken tile by tile. Row r of x is contracted with column n of w over 4096 coordinates; the
  kernel does it in four tiles of 1024 coordinates, each tile's partial sum added to a running total that
  starts at zero. Because addition on the extended reals is associative and commutative (nothing more is used:
  no cancellation, no distributivity, so infinities do no harm), the running total after all four tiles is the
  whole contraction.

  Coordinates: entry p of block b of an axis of 4096 cut into 4 blocks of 1024 is the global coordinate
  1024 * b + p.
-/
import proofs.«168420_j48112223650319_1_alg».proof.Proof.Spec
import proofs.«168420_j48112223650319_1_alg».proof.Proof.LibTiledSum

noncomputable section

namespace Cert.KernelIdeal.KSum

open Idealize.ShloMosaic Idealize.ShloMosaic.ValueIdx Cert.Spec

/-- The global coordinate of entry p of block b (the block number is taken modulo 4, so the function is total). -/
def gi (b : ℕ) (p : Fin 1024) : Fin 4096 := ⟨1024 * (b % 4) + p.val, by have := p.isLt; omega⟩

theorem gi_val (b : ℕ) (p : Fin 1024) : (gi b p).val = 1024 * (b % 4) + p.val := rfl

/-- Term κ of the contraction of row r of x with column n of w (zero past the last coordinate). -/
def term (x w : SMat.Idx → EReal) (r n : Fin 4096) (κ : ℕ) : EReal :=
  if h : κ < 4096 then x (ix2 r ⟨κ, h⟩) * w (ix2 ⟨κ, h⟩ n) else 0

/-- The running total: zero, then tile after tile of 1024 consecutive terms. -/
def tot (x w : SMat.Idx → EReal) (r n : Fin 4096) : ℕ → EReal
  | 0 => 0
  | K + 1 => tot x w r n K + ∑ j : Fin 1024, term x w r n (K * 1024 + j.val)

theorem tot_zero (x w : SMat.Idx → EReal) (r n : Fin 4096) : tot x w r n 0 = 0 := rfl

theorem tot_succ (x w : SMat.Idx → EReal) (r n : Fin 4096) (K : ℕ) :
    tot x w r n (K + 1) = tot x w r n K + ∑ j : Fin 1024, term x w r n (K * 1024 + j.val) := rfl

/-- Tile K of the contraction, written over the block coordinates, is the K-th tile of 1024 terms. -/
theorem tile_eq (x w : SMat.Idx → EReal) (r n : Fin 4096) (K : ℕ) (hK : K < 4) :
    ∑ k : Fin 1024, x (ix2 r (gi K k)) * w (ix2 (gi K k) n) = ∑ j : Fin 1024, term x w r n (K * 1024 + j.val) := by
  refine Finset.sum_congr rfl fun k _ => ?_
  have hk := k.isLt
  have hlt : K * 1024 + k.val < 4096 := by omega
  have e : gi K k = ⟨K * 1024 + k.val, hlt⟩ := Fin.ext (by rw [gi_val, Nat.mod_eq_of_lt hK]; show 1024 * K + k.val = K * 1024 + k.val; omega)
  unfold term
  rw [dif_pos hlt, e]

/-- After the four tiles the running total is the whole contraction. -/
theorem tot_four (x w : SMat.Idx → EReal) (r n : Fin 4096) :
    tot x w r n 4 = ∑ k : Fin 4096, x (ix2 r k) * w (ix2 k n) := by
  rw [Cert.TiledSum.acc_eq_sum_fin 1024 (term x w r n) (tot x w r n) rfl (fun _ => rfl) 4]
  show ∑ k : Fin 4096, term x w r n k.val = _
  refine Finset.sum_congr rfl fun k _ => ?_
  unfold term
  rw [dif_pos k.isLt]

/-- So the last running total plus the bias entry is the affine map's entry. -/
theorem tot_four_add (x w : SMat.Idx → EReal) (b : Fin 4096 → EReal) (r n : Fin 4096) :
    tot x w r n 4 + b n = affine x w b r n := by
  rw [tot_four]; rfl

end Cert.KernelIdeal.KSum

end
-- ==== Proof.KerBlocks.lean ====
/-
  Where a grid point's blocks sit in the arrays. The grid is 4 x 4 x 4; point t = 16 i + 4 j + k has row-block i,
  column-block j and contraction-block k. At that point the left operand's block is rows 1024 i .., columns 1024 k ..
  of the left array; the right operand's block is rows 1024 k .., columns 1024 j .. of the right array; the bias block
  is columns 1024 j .. of the one bias row; the output block is rows 1024 i .., columns 1024 j .. of the result.
  An entry of a block is read from the array at (block number * 1024 + its coordinate) on each axis.
-/
import proofs.«168420_j48112223650319_1_alg».proof.Proof.Gen.KernelIdeal.Frame
import proofs.«168420_j48112223650319_1_alg».proof.Proof.KerSum
import Idealize.ShloMosaic.Lib.Pipeline.Value
import Idealize.ShloMosaic.Lib.ValueIdx

noncomputable section

open Idealize.ShloMosaic Idealize.ShloMosaic.TcCoe Idealize.SL.Sem

namespace Cert.KernelIdeal.KVal

open Cert.KernelIdeal Cert.KernelIdeal.Gen

open Idealize.ShloMosaic.ValueIdx Cert.KernelIdeal.KSum

variable {F : FTy → Type} [FloatOps F]
variable (m : (ℓ : Loc nD τ sig) → Buf (Elt F) ℓ)

/-- The block numbers of the four windows at point t, in closed form (checked at each of the 64 points). -/
theorem idx_facts : ∀ t : Fin cfg0.N,
    win0_0.index t (0 : Fin 2) = t.val / 16 % 4 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 % 4 ∧ win0_3.index t (1 : Fin 2) = t.val / 4 % 4 :=
  (by decide +kernel : ∀ t : Fin grid0.N, _)

/-- Entry (p, q) of the left operand's block at point t: the left array at row 1024 i + p, column 1024 k + q. -/
theorem xblk_apply (c : Dev nD) (t : Fin cfg0.N) (p q : Fin 1024) :
    (iblk m c 0 t : Vec F S1024x1024 .bf16) (ix2 p q) = V m c main_v35 (ix2 (gi (t.val / 16) p) (gi (t.val % 4) q)) := by
  obtain ⟨e0, e1, -⟩ := idx_facts t
  unfold iblk
  rw [View.read_apply]
  show V m c main_v35 _ = V m c main_v35 _
  refine congrArg (V m c main_v35) (funext fun a => Fin.ext ?_)
  match a with
  | ⟨0, _⟩ => show win0_0.index t (0 : Fin 2) * 1024 + 1 * p.val = 1024 * (t.val / 16 % 4) + p.val; rw [e0]; omega
  | ⟨1, _⟩ => show win0_0.index t (1 : Fin 2) * 1024 + 1 * q.val = 1024 * (t.val % 4 % 4) + q.val; rw [e1]; omega

/-- Entry (p, q) of the right operand's block at point t: the right array at row 1024 k + p, column 1024 j + q. -/
theorem wblk_apply (c : Dev nD) (t : Fin cfg0.N) (p q : Fin 1024) :
    (iblk m c 1 t : Vec F S1024x1024 .bf16) (ix2 p q) = V m c main_v36 (ix2 (gi (t.val % 4) p) (gi (t.val / 4) q)) := by
  obtain ⟨-, -, e0, e1, -⟩ := idx_facts t
  unfold iblk
  rw [View.read_apply]
  show V m c main_v36 _ = V m c main_v36 _
  refine congrArg (V m c main_v36) (funext fun a => Fin.ext ?_)
  match a with
  | ⟨0, _⟩ => show win0_1.index t (0 : Fin 2) * 1024 + 1 * p.val = 1024 * (t.val % 4 % 4) + p.val; rw [e0]; omega
  | ⟨1, _⟩ => show win0_1.index t (1 : Fin 2) * 1024 + 1 * q.val = 1024 * (t.val / 4 % 4) + q.val; rw [e1]; omega

/-- Entry (0, q) of the bias block at point t: the bias row at column 1024 j + q. -/
theorem bblk_apply (c : Dev nD) (t : Fin cfg0.N) (q : Fin 1024) :
    (iblk m c 2 t : Vec F S1x1024 .f32) (ix2 0 q) = V m c main_v37 (ix2 0 (gi (t.val / 4) q)) := by
  obtain ⟨-, -, -, -, e0, e1, -⟩ := idx_facts t
  unfold iblk
  rw [View.read_apply]
  show V m c main_v37 _ = V m c main_v37 _
  refine congrArg (V m c main_v37) (funext fun a => Fin.ext ?_)
  match a with
  | ⟨0, _⟩ => show win0_2.index t (0 : Fin 2) * 1 + 1 * 0 = 0; rw [e0]
  | ⟨1, _⟩ => show win0_2.index t (1 : Fin 2) * 1024 + 1 * q.val = 1024 * (t.val / 4 % 4) + q.val; rw [e1]; omega

/-- Entry (p, q) of the output block at point t sits in the result array at row 1024 i + p, column 1024 j + q. -/
theorem oblk_emb (t : Fin cfg0.N) (p q : Fin 1024) :
    ((cfg0.win 3).blk t).view.emb (ix2 p q) = ix2 (gi (t.val / 16) p) (gi (t.val / 4) q) := by
  obtain ⟨-, -, -, -, -, -, e0, e1⟩ := idx_facts t
  refine funext fun a => Fin.ext ?_
  match a with
  | ⟨0, _⟩ => show win0_3.index t (0 : Fin 2) * 1024 + 1 * p.val = 1024 * (t.val / 16 % 4) + p.val; rw [e0]; omega
  | ⟨1, _⟩ => show win0_3.index t (1 : Fin 2) * 1024 + 1 * q.val = 1024 * (t.val / 4 % 4) + q.val; rw [e1]; omega

end Cert.KernelIdeal.KVal

end
-- ==== Proof.KerAcc.lean ====
/-
  The accumulator after every grid point, in closed form. Write point t = 16 i + 4 j + k. After point t the
  accumulator's entry (p, q) is the running total, over the first k + 1 tiles of 1024 contraction coordinates, of
  row 1024 i + p of the left array against column 1024 j + q of the right array: by induction on t, since at
  k = 0 the accumulator restarts from zero and otherwise the point adds tile k to what point t - 1 left (which has
  the same i and j). Hence at k = 3 the output block's entry (p, q) is the whole contraction plus the bias entry
  1024 j + q: the affine map's entry (1024 i + p, 1024 j + q).
-/
import proofs.«168420_j48112223650319_1_alg».proof.Proof.KerSteps
import proofs.«168420_j48112223650319_1_alg».proof.Proof.KerPayload
import proofs.«168420_j48112223650319_1_alg».proof.Proof.KerBlocks
import proofs.«168420_j48112223650319_1_alg».proof.Proof.KerSum

noncomputable section

open Idealize.ShloMosaic Idealize.ShloMosaic.TcCoe Idealize.SL.Sem

namespace Cert.KernelIdeal.KVal

open Cert.KernelIdeal Cert.KernelIdeal.Gen

open Idealize.ShloMosaic.ValueIdx Cert.KernelIdeal.KSum Cert.Spec

variable (m : (ℓ : Loc nD τ sig) → Buf (Elt Ideal) ℓ)

/-- The left array, the right array and the bias vector, as the region finds them. -/
abbrev XA (c : Dev nD) : SMat.Idx → EReal := V m c main_v35
abbrev WA (c : Dev nD) : SMat.Idx → EReal := V m c main_v36
abbrev BA (c : Dev nD) : Fin 4096 → EReal := fun n => V m c main_v37 (ix2 0 n)

/-- The point's two blocks and its bias block, at their literal shapes. -/
abbrev xb (c : Dev nD) (t : Fin cfg0.N) : Vec Ideal S1024x1024 .bf16 := iblk m c 0 t
abbrev wb (c : Dev nD) (t : Fin cfg0.N) : Vec Ideal S1024x1024 .bf16 := iblk m c 1 t
abbrev bb (c : Dev nD) (t : Fin cfg0.N) : Vec Ideal S1x1024 .f32 := iblk m c 2 t

/-- The product of the point's two blocks at entry (p, q) is tile k of the contraction of the global row with the
    global column. -/
theorem tile_at (c : Dev nD) (t : Fin cfg0.N) (p q : Fin 1024) :
    ∑ k : Fin 1024, xb m c t (ix2 p k) * wb m c t (ix2 k q)
      = ∑ j : Fin 1024, term (XA m c) (WA m c) (gi (t.val / 16) p) (gi (t.val / 4) q) (t.val % 4 * 1024 + j.val) := by
  rw [← tile_eq (XA m c) (WA m c) (gi (t.val / 16) p) (gi (t.val / 4) q) (t.val % 4) (Nat.mod_lt _ (by decide))]
  refine Finset.sum_congr rfl fun k _ => ?_
  exact congrArg₂ (· * ·) (xblk_apply m c t p k) (wblk_apply m c t k q)

/-- One accumulation step at entry (p, q): what was there plus tile k. -/
theorem step_at (c : Dev nD) (t : Fin cfg0.N) (acc : Vec Ideal S1024x1024 .f32) (p q : Fin 1024) :
    k0_pay2 (F := Ideal) acc (iblk m c 0 t) (iblk m c 1 t) (ix2 p q)
      = acc (ix2 p q) + ∑ j : Fin 1024, term (XA m c) (WA m c) (gi (t.val / 16) p) (gi (t.val / 4) q) (t.val % 4 * 1024 + j.val) :=
  (pay_acc_apply acc (xb m c t) (wb m c t) p q).trans (congrArg (acc (ix2 p q) + ·) (tile_at m c t p q))

/-- THE INVARIANT: after point n the accumulator holds the running total of n mod 4 + 1 tiles. -/
theorem scratch_eq (c : Dev nD) : ∀ (n : ℕ) (h : n < cfg0.N) (p q : Fin 1024),
    (outsAt0 m c n h).2 (ix2 p q) = tot (XA m c) (WA m c) (gi (n / 16) p) (gi (n / 4) q) (n % 4 + 1) := by
  intro n
  induction n with
  | zero =>
    intro h p q
    rw [scratch_first m c ⟨0, h⟩ rfl (by show ¬(0 % 4 = 3); decide)]
    refine (step_at m c ⟨0, h⟩ (k0_pay1 (F := Ideal)) p q).trans ?_
    rw [pay_zero_apply]
    rfl
  | succ n ih =>
    intro h p q
    by_cases h0 : (n + 1) % 4 = 0
    · have h1 : ¬(n + 1) % 4 = 3 := by omega
      rw [scratch_first m c ⟨n + 1, h⟩ h0 h1]
      refine (step_at m c ⟨n + 1, h⟩ (k0_pay1 (F := Ideal)) p q).trans ?_
      rw [pay_zero_apply]
      show 0 + ∑ j : Fin 1024, term _ _ _ _ ((n + 1) % 4 * 1024 + j.val) = tot _ _ _ _ ((n + 1) % 4 + 1)
      rw [h0]
      rfl
    · have e4 : n / 4 = (n + 1) / 4 := by omega
      have e16 : n / 16 = (n + 1) / 16 := by omega
      have ek : n % 4 + 1 = (n + 1) % 4 := by omega
      have hstep : (outsAt0 m c (n + 1) h).2 = k0_pay2 (outsAt0 m c n (Nat.lt_of_succ_lt h)).2 (iblk m c 0 ⟨n + 1, h⟩) (iblk m c 1 ⟨n + 1, h⟩) := by
        by_cases h1 : (n + 1) % 4 = 3
        · exact scratch_last m c ⟨n + 1, h⟩ h0 h1
        · exact scratch_middle m c ⟨n + 1, h⟩ h0 h1
      rw [hstep]
      refine (step_at m c ⟨n + 1, h⟩ (outsAt0 m c n (Nat.lt_of_succ_lt h)).2 p q).trans ?_
      rw [ih (Nat.lt_of_succ_lt h) p q]
      show tot _ _ (gi (n / 16) p) (gi (n / 4) q) (n % 4 + 1) + ∑ j : Fin 1024, term _ _ (gi ((n + 1) / 16) p) (gi ((n + 1) / 4) q) ((n + 1) % 4 * 1024 + j.val)
        = tot _ _ (gi ((n + 1) / 16) p) (gi ((n + 1) / 4) q) ((n + 1) % 4 + 1)
      rw [e4, e16, ek]
      rfl

/-- At a point with k = 3 the output block's entry (p, q) is the affine map's entry at the global row and column. -/
theorem out_eq (c : Dev nD) (t : Fin cfg0.N) (h1 : t.val % 4 = 3) (p q : Fin 1024) :
    (outsAt0 m c t.val t.isLt).1 (ix2 p q) = affine (XA m c) (WA m c) (BA m c) (gi (t.val / 16) p) (gi (t.val / 4) q) := by
  have h0 : ¬t.val % 4 = 0 := by omega
  rw [out_of_scratch m c t h0 h1]
  refine (pay_out_apply (outsAt0 m c t.val t.isLt).2 (bb m c t) p q).trans ?_
  rw [scratch_eq m c t.val t.isLt p q, h1]
  refine Eq.trans (congrArg (tot (XA m c) (WA m c) (gi (t.val / 16) p) (gi (t.val / 4) q) (3 + 1) + ·) (bblk_apply m c t q)) ?_
  exact tot_four_add (XA m c) (WA m c) (BA m c) (gi (t.val / 16) p) (gi (t.val / 4) q)

end Cert.KernelIdeal.KVal

end
-- ==== Proof.KerValue.lean ====
/-
  From blocks to the whole result. The output block is written back exactly at the points t = 16 i + 4 j + 3, and
  what is written there is block (i, j) of the affine map x * w + b (entry (p, q) of the block is entry
  (1024 i + p, 1024 j + q) of the map). Every entry (r, n) of the 4096 x 4096 result lies in the block written at
  the point 16 (r / 1024) + 4 (n / 1024) + 3, so after the run the result array is the affine map, entry by entry.
-/
import proofs.«168420_j48112223650319_1_alg».proof.Proof.Gen.KernelIdeal.Value
import proofs.«168420_j48112223650319_1_alg».proof.Proof.KerAcc

noncomputable section

open Idealize.ShloMosaic Idealize.ShloMosaic.TcCoe Idealize.SL.Sem

namespace Cert.KernelIdeal.KVal

open Cert.KernelIdeal Cert.KernelIdeal.Gen

open Idealize.ShloMosaic.ValueIdx Cert.KernelIdeal.KSum Cert.Spec
open Idealize.ShloMosaic.Pipeline (Dat)

variable (m : (ℓ : Loc nD τ sig) → Buf (Elt Ideal) ℓ) (ρ : Dev nD → PrngReg)

/-- The result the kernel's array ends holding: the affine map of the three arrays as the region finds them. -/
abbrev result (c : Dev nD) : SMat.Idx → EReal := affineArr (XA m c) (WA m c) (BA m c)

/-- What a writing-back point writes is its block of the affine map. -/
theorem flushed_eq (c : Dev nD) (t : Fin cfg0.N) (hf : (cfg0.win 3).flush t = true) :
    (dats m 0 c).flushed 3 t = ((cfg0.win 3).blk t).view.read (Elt Ideal) (result m c) := by
  have h1 : t.val % 4 = 3 := (flush0_3 t).mp hf
  rw [Value.flushed3 m c t]
  funext y
  obtain ⟨p, q, rfl⟩ : ∃ (p q : Fin 1024), y = ix2 p q := ⟨y 0, y 1, eq_ix2 y⟩
  rw [View.read_apply]
  show (outsAt0 m c t.val t.isLt).1 (ix2 p q) = result m c (((cfg0.win 3).blk t).view.emb (ix2 p q))
  rw [oblk_emb t p q]
  exact out_eq m c t h1 p q

/-- An entry of the result array is in point t's output block iff each coordinate is in the block's range. -/
theorem mem_blk (t : Fin cfg0.N) (i : S4096x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v38).slice (win0_3.rect t)).set ↔ _
  rw [View.set_slice_whole, Rect.mem_set_unit]
  exact Iff.rfl

/-- Every entry lies in the block some point writes back: the point with its row block, its column block, k = 3. -/
theorem cover (i : S4096x4096.Idx) :
    ∃ t : Fin cfg0.N, (cfg0.win 3).flush t = true ∧ i ∈ ((cfg0.win 3).blk t).view.set := by
  have hi0 : (i 0).val < 4096 := idx2_lt0 i
  have hi1 : (i 1).val < 4096 := idx2_lt1 i
  have hN : cfg0.N = 64 := N_0
  obtain ⟨tv, htv⟩ : ∃ tv : ℕ, tv = 16 * ((i 0).val / 1024) + 4 * ((i 1).val / 1024) + 3 := ⟨_, rfl⟩
  have ht : tv < cfg0.N := by rw [hN]; omega
  refine ⟨⟨tv, ht⟩, (flush0_3 ⟨tv, ht⟩).mpr (by show tv % 4 = 3; omega), ?_⟩
  rw [mem_blk]
  obtain ⟨-, -, -, -, -, -, e0, e1⟩ := idx_facts (⟨tv, ht⟩ : Fin cfg0.N)
  intro a
  match a with
  | ⟨0, _⟩ =>
    show win0_3.index ⟨tv, ht⟩ (0 : Fin 2) * 1024 ≤ (i 0).val ∧ (i 0).val < win0_3.index ⟨tv, ht⟩ (0 : Fin 2) * 1024 + 1024
    rw [e0]; show tv / 16 % 4 * 1024 ≤ (i 0).val ∧ (i 0).val < tv / 16 % 4 * 1024 + 1024; omega
  | ⟨1, _⟩ =>
    show win0_3.index ⟨tv, ht⟩ (1 : Fin 2) * 1024 ≤ (i 1).val ∧ (i 1).val < win0_3.index ⟨tv, ht⟩ (1 : Fin 2) * 1024 + 1024
    rw [e1]; show tv / 4 % 4 * 1024 ≤ (i 1).val ∧ (i 1).val < tv / 4 % 4 * 1024 + 1024; omega

/-- So after the run the result array is the affine map. -/
theorem final (c : Dev nD) : (dats m 0 c).arrAt 3 cfg0.N = result m c :=
  (dats m 0 c).arrAt_eq_of_cover 3 (result m c) (flushed_eq m c) cover

/-- THE KERNEL'S RUN, READ: every execution ends with the result array at x * w + b of the arrays the region is
    given, and the four arguments as launched. -/
theorem run : θ_run (defs (F := Ideal)) (onTc (τ := τ) (main (F := Ideal))) ⟨m, fun _ => 0, ρ⟩ fun r => ∀ c : Dev nD,
      r.2.mem ((c.tc : Thread nD τ).loc main_v38) = Cert.Spec.affineArr (Gen.V m c main_v35) (Gen.V m c main_v36) (fun n => Gen.V m c main_v37 (ix2 0 n))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (final m c), (h c).2⟩) (Value.run_blocks m ρ)

end Cert.KernelIdeal.KVal

end
-- ==== Proof.RefOps.lean ====
/-
  The reference's main function as a straight line: eighty-five host operations once the two outlined
  helpers (the floored quotient and the remainder of the block ids by 128, each calling a select helper)
  are unfolded at their call sites over the calls' own buffers. Every weakly fair execution then
  terminates with each buffer at the fold of the operations over the launch contents.
-/
import proofs.«168420_j48112223650319_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first operation: the scalar 128 the quotient helper receives. -/
abbrev op0 : HloOp τ sig (Elt F) := StableHlo.nullary main_c (constantI S_ 32 128#32)
/-- The quotient helper's 17 operations over its call's buffers (its select helper's one among them). -/
abbrev opsFD : List (HloOp τ sig (Elt F)) :=
  [ StableHlo.TRef.unary (.of main_c : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S8192, .i32⟩) (broadcastInDim S8192 ![] bcast_S_S8192),
    StableHlo.TRef.binary (.of main_arg3 : StableHlo.TRef sig ⟨S8192, .i32⟩) (.of main_call0_v1 : StableHlo.TRef sig ⟨S8192, .i32⟩) (.of main_call0_v2 : StableHlo.TRef sig ⟨S8192, .i32⟩) Host.divsi,
    StableHlo.TRef.unary (.of main_arg3 : StableHlo.TRef sig ⟨S8192, .i32⟩) (.of main_call0_v3 : StableHlo.TRef sig ⟨S8192, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S8192, .i32⟩) (broadcastInDim S8192 ![] bcast_S_S8192),
    StableHlo.TRef.binary (.of main_call0_v3 : StableHlo.TRef sig ⟨S8192, .i32⟩) (.of main_call0_v5 : StableHlo.TRef sig ⟨S8192, .i32⟩) (.of main_call0_v6 : StableHlo.TRef sig ⟨S8192, .i1⟩) (cmpi .ne),
    StableHlo.TRef.unary (.of main_call0_v0 : StableHlo.TRef sig ⟨S_, .i32⟩) (.of main_call0_v7 : StableHlo.TRef sig ⟨S8192, .i32⟩) (broadcastInDim S8192 ![] bcast_S_S8192),
    StableHlo.TRef.binary (.of main_arg3 : StableHlo.TRef sig ⟨S8192, .i32⟩) (.of main_call0_v7 : StableHlo.TRef sig ⟨S8192, .i32⟩) (.of main_call0_v8 : StableHlo.TRef sig ⟨S8192, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S8192, .i32⟩) (broadcastInDim S8192 ![] bcast_S_S8192),
    StableHlo.TRef.binary (.of main_call0_v8 : StableHlo.TRef sig ⟨S8192, .i32⟩) (.of main_call0_v9 : StableHlo.TRef sig ⟨S8192, .i32⟩) (.of main_call0_v10 : StableHlo.TRef sig ⟨S8192, .i1⟩) (cmpi .ne),
    StableHlo.TRef.binary (.of main_call0_v6 : StableHlo.TRef sig ⟨S8192, .i1⟩) (.of main_call0_v10 : StableHlo.TRef sig ⟨S8192, .i1⟩) (.of main_call0_v11 : StableHlo.TRef sig ⟨S8192, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S8192, .i32⟩) (broadcastInDim S8192 ![] bcast_S_S8192),
    StableHlo.TRef.binary (.of main_call0_v2 : StableHlo.TRef sig ⟨S8192, .i32⟩) (.of main_call0_v12 : StableHlo.TRef sig ⟨S8192, .i32⟩) (.of main_call0_v13 : StableHlo.TRef sig ⟨S8192, .i32⟩) subi,
    StableHlo.TRef.ternary (.of main_call0_v11 : StableHlo.TRef sig ⟨S8192, .i1⟩) (.of main_call0_v13 : StableHlo.TRef sig ⟨S8192, .i32⟩) (.of main_call0_v2 : StableHlo.TRef sig ⟨S8192, .i32⟩) (.of main_v0 : StableHlo.TRef sig ⟨S8192, .i32⟩) select ]
/-- The scalar 128 the remainder helper receives. -/
abbrev op1 : HloOp τ sig (Elt F) := StableHlo.nullary main_c_0 (constantI S_ 32 128#32)
/-- The remainder helper's 21 operations over its call's buffers (its select helper's one among them). -/
abbrev opsRem : List (HloOp τ sig (Elt F)) :=
  [ StableHlo.TRef.unary (.of main_c_0 : StableHlo.TRef sig ⟨S_, .i32⟩) (.of main_call1_v0 : StableHlo.TRef sig ⟨S_, .i32⟩) id,
    StableHlo.TRef.nullary (.of main_call1_c : StableHlo.TRef sig ⟨S_, .i32⟩) (constantI S_ 32 0#32),
    StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq),
    StableHlo.TRef.nullary (.of main_call1_c_0 : StableHlo.TRef sig ⟨S_, .i32⟩) (constantI S_ 32 1#32),
    StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) (.of main_call1_v2 : StableHlo.TRef sig ⟨S_, .i32⟩) select,
    StableHlo.TRef.unary (.of main_call1_v2 : StableHlo.TRef sig ⟨S_, .i32⟩) (.of main_call1_v3 : StableHlo.TRef sig ⟨S8192, .i32⟩) (broadcastInDim S8192 ![] bcast_S_S8192),
    StableHlo.TRef.binary (.of main_arg3 : StableHlo.TRef sig ⟨S8192, .i32⟩) (.of main_call1_v3 : StableHlo.TRef sig ⟨S8192, .i32⟩) (.of main_call1_v4 : StableHlo.TRef sig ⟨S8192, .i32⟩) Host.remsi,
    StableHlo.TRef.nullary (.of main_call1_c_1 : StableHlo.TRef sig ⟨S_, .i32⟩) (constantI S_ 32 0#32),
    StableHlo.TRef.unary (.of main_call1_c_1 : StableHlo.TRef sig ⟨S_, .i32⟩) (.of main_call1_v5 : StableHlo.TRef sig ⟨S8192, .i32⟩) (broadcastInDim S8192 ![] bcast_S_S8192),
    StableHlo.TRef.binary (.of main_call1_v4 : StableHlo.TRef sig ⟨S8192, .i32⟩) (.of main_call1_v5 : StableHlo.TRef sig ⟨S8192, .i32⟩) (.of main_call1_v6 : StableHlo.TRef sig ⟨S8192, .i1⟩) (cmpi .ne),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v7 : StableHlo.TRef sig ⟨S8192, .i32⟩) (broadcastInDim S8192 ![] bcast_S_S8192),
    StableHlo.TRef.binary (.of main_call1_v4 : StableHlo.TRef sig ⟨S8192, .i32⟩) (.of main_call1_v7 : StableHlo.TRef sig ⟨S8192, .i32⟩) (.of main_call1_v8 : StableHlo.TRef sig ⟨S8192, .i1⟩) (cmpi .slt),
    StableHlo.TRef.nullary (.of main_call1_c_3 : StableHlo.TRef sig ⟨S_, .i32⟩) (constantI S_ 32 0#32),
    StableHlo.TRef.binary (.of main_call1_v2 : StableHlo.TRef sig ⟨S_, .i32⟩) (.of main_call1_c_3 : StableHlo.TRef sig ⟨S_, .i32⟩) (.of main_call1_v9 : StableHlo.TRef sig ⟨S_, .i1⟩) (cmpi .slt),
    StableHlo.TRef.unary (.of main_call1_v9 : StableHlo.TRef sig ⟨S_, .i1⟩) (.of main_call1_v10 : StableHlo.TRef sig ⟨S8192, .i1⟩) (broadcastInDim S8192 ![] bcast_S_S8192),
    StableHlo.TRef.binary (.of main_call1_v8 : StableHlo.TRef sig ⟨S8192, .i1⟩) (.of main_call1_v10 : StableHlo.TRef sig ⟨S8192, .i1⟩) (.of main_call1_v11 : StableHlo.TRef sig ⟨S8192, .i1⟩) (cmpi .ne),
    StableHlo.TRef.binary (.of main_call1_v11 : StableHlo.TRef sig ⟨S8192, .i1⟩) (.of main_call1_v6 : StableHlo.TRef sig ⟨S8192, .i1⟩) (.of main_call1_v12 : StableHlo.TRef sig ⟨S8192, .i1⟩) andi,
    StableHlo.TRef.unary (.of main_call1_v2 : StableHlo.TRef sig ⟨S_, .i32⟩) (.of main_call1_v13 : StableHlo.TRef sig ⟨S8192, .i32⟩) (broadcastInDim S8192 ![] bcast_S_S8192),
    StableHlo.TRef.binary (.of main_call1_v4 : StableHlo.TRef sig ⟨S8192, .i32⟩) (.of main_call1_v13 : StableHlo.TRef sig ⟨S8192, .i32⟩) (.of main_call1_v14 : StableHlo.TRef sig ⟨S8192, .i32⟩) addi,
    StableHlo.TRef.ternary (.of main_call1_v12 : StableHlo.TRef sig ⟨S8192, .i1⟩) (.of main_call1_v14 : StableHlo.TRef sig ⟨S8192, .i32⟩) (.of main_call1_v4 : StableHlo.TRef sig ⟨S8192, .i32⟩) (.of main_v1 : StableHlo.TRef sig ⟨S8192, .i32⟩) select ]
/-- The main function's own 45 operations after the two calls. -/
abbrev opsRest : List (HloOp τ sig (Elt F)) :=
  [ StableHlo.unary main_v0 main_v2 (broadcastInDim S8192x1x1 ![0] bcast_S8192_S8192x1x1_0 : (⟨S8192, .i32⟩ : BufTy).Contents (Elt F) → (⟨S8192x1x1, .i32⟩ : BufTy).Contents (Elt F)),
    StableHlo.nullary main_c_1 (constantI S_ 32 32#32),
    StableHlo.unary main_c_1 main_v3 (broadcastInDim S8192x1x1 ![] bcast_S_S8192x1x1 : (⟨S_, .i32⟩ : BufTy).Contents (Elt F) → (⟨S8192x1x1, .i32⟩ : BufTy).Contents (Elt F)),
    StableHlo.binary main_v2 main_v3 main_v4 (muli : (⟨S8192x1x1, .i32⟩ : BufTy).Contents (Elt F) → (⟨S8192x1x1, .i32⟩ : BufTy).Contents (Elt F) → (⟨S8192x1x1, .i32⟩ : BufTy).Contents (Elt F)),
    StableHlo.nullary main_v5 (iotaInDim S32 32 0),
    StableHlo.unary main_v5 main_v6 (broadcastInDim S1x32x1 ![1] bcast_S32_S1x32x1_1 : (⟨S32, .i32⟩ : BufTy).Contents (Elt F) → (⟨S1x32x1, .i32⟩ : BufTy).Contents (Elt F)),
    StableHlo.unary main_v4 main_v7 (broadcastInDim S8192x32x1 ![0, 1, 2] bcast_S8192x1x1_S8192x32x1_0_1_2 : (⟨S8192x1x1, .i32⟩ : BufTy).Contents (Elt F) → (⟨S8192x32x1, .i32⟩ : BufTy).Contents (Elt F)),
    StableHlo.unary main_v6 main_v8 (broadcastInDim S8192x32x1 ![0, 1, 2] bcast_S1x32x1_S8192x32x1_0_1_2 : (⟨S1x32x1, .i32⟩ : BufTy).Contents (Elt F) → (⟨S8192x32x1, .i32⟩ : BufTy).Contents (Elt F)),
    StableHlo.binary main_v7 main_v8 main_v9 (addi : (⟨S8192x32x1, .i32⟩ : BufTy).Contents (Elt F) → (⟨S8192x32x1, .i32⟩ : BufTy).Contents (Elt F) → (⟨S8192x32x1, .i32⟩ : BufTy).Contents (Elt F)),
    StableHlo.unary main_v1 main_v10 (broadcastInDim S8192x1x1 ![0] bcast_S8192_S8192x1x1_0 : (⟨S8192, .i32⟩ : BufTy).Contents (Elt F) → (⟨S8192x1x1, .i32⟩ : BufTy).Contents (Elt F)),
    StableHlo.nullary main_c_2 (constantI S_ 32 32#32),
    StableHlo.unary main_c_2 main_v11 (broadcastInDim S8192x1x1 ![] bcast_S_S8192x1x1 : (⟨S_, .i32⟩ : BufTy).Contents (Elt F) → (⟨S8192x1x1, .i32⟩ : BufTy).Contents (Elt F)),
    StableHlo.binary main_v10 main_v11 main_v12 (muli : (⟨S8192x1x1, .i32⟩ : BufTy).Contents (Elt F) → (⟨S8192x1x1, .i32⟩ : BufTy).Contents (Elt F) → (⟨S8192x1x1, .i32⟩ : BufTy).Contents (Elt F)),
    StableHlo.nullary main_v13 (iotaInDim S32 32 0),
    StableHlo.unary main_v13 main_v14 (broadcastInDim S1x1x32 ![2] bcast_S32_S1x1x32_2 : (⟨S32, .i32⟩ : BufTy).Contents (Elt F) → (⟨S1x1x32, .i32⟩ : BufTy).Contents (Elt F)),
    StableHlo.unary main_v12 main_v15 (broadcastInDim S8192x1x32 ![0, 1, 2] bcast_S8192x1x1_S8192x1x32_0_1_2 : (⟨S8192x1x1, .i32⟩ : BufTy).Contents (Elt F) → (⟨S8192x1x32, .i32⟩ : BufTy).Contents (Elt F)),
    StableHlo.unary main_v14 main_v16 (broadcastInDim S8192x1x32 ![0, 1, 2] bcast_S1x1x32_S8192x1x32_0_1_2 : (⟨S1x1x32, .i32⟩ : BufTy).Contents (Elt F) → (⟨S8192x1x32, .i32⟩ : BufTy).Contents (Elt F)),
    StableHlo.binary main_v15 main_v16 main_v17 (addi : (⟨S8192x1x32, .i32⟩ : BufTy).Contents (Elt F) → (⟨S8192x1x32, .i32⟩ : BufTy).Contents (Elt F) → (⟨S8192x1x32, .i32⟩ : BufTy).Contents (Elt F)),
    StableHlo.nullary main_cst (constant S_ .f32 0x00000000#32),
    StableHlo.unary main_cst main_v18 (broadcastInDim S4096x4096 ![] bcast_S_S4096x4096 : (⟨S_, .f32⟩ : BufTy).Contents (Elt F) → (⟨S4096x4096, .f32⟩ : BufTy).Contents (Elt F)),
    StableHlo.nullary main_c_3 (constantI S_ 32 0#32),
    StableHlo.unary main_c_3 main_v19 (broadcastInDim S8192x32x1 ![] bcast_S_S8192x32x1 : (⟨S_, .i32⟩ : BufTy).Contents (Elt F) → (⟨S8192x32x1, .i32⟩ : BufTy).Contents (Elt F)),
    StableHlo.binary main_v9 main_v19 main_v20 (cmpi .slt : (⟨S8192x32x1, .i32⟩ : BufTy).Contents (Elt F) → (⟨S8192x32x1, .i32⟩ : BufTy).Contents (Elt F) → (⟨S8192x32x1, .i1⟩ : BufTy).Contents (Elt F)),
    StableHlo.nullary main_c_4 (constantI S_ 32 4096#32),
    StableHlo.unary main_c_4 main_v21 (broadcastInDim S8192x32x1 ![] bcast_S_S8192x32x1 : (⟨S_, .i32⟩ : BufTy).Contents (Elt F) → (⟨S8192x32x1, .i32⟩ : BufTy).Contents (Elt F)),
    StableHlo.binary main_v9 main_v21 main_v22 (addi : (⟨S8192x32x1, .i32⟩ : BufTy).Contents (Elt F) → (⟨S8192x32x1, .i32⟩ : BufTy).Contents (Elt F) → (⟨S8192x32x1, .i32⟩ : BufTy).Contents (Elt F)),
    StableHlo.ternary main_v20 main_v22 main_v9 main_v23 (select : (⟨S8192x32x1, .i1⟩ : BufTy).Contents (Elt F) → (⟨S8192x32x1, .i32⟩ : BufTy).Contents (Elt F) → (⟨S8192x32x1, .i32⟩ : BufTy).Contents (Elt F) → (⟨S8192x32x1, .i32⟩ : BufTy).Contents (Elt F)),
    StableHlo.nullary main_c_5 (constantI S_ 32 0#32),
    StableHlo.unary main_c_5 main_v24 (broadcastInDim S8192x1x32 ![] bcast_S_S8192x1x32 : (⟨S_, .i32⟩ : BufTy).Contents (Elt F) → (⟨S8192x1x32, .i32⟩ : BufTy).Contents (Elt F)),
    StableHlo.binary main_v17 main_v24 main_v25 (cmpi .slt : (⟨S8192x1x32, .i32⟩ : BufTy).Contents (Elt F) → (⟨S8192x1x32, .i32⟩ : BufTy).Contents (Elt F) → (⟨S8192x1x32, .i1⟩ : BufTy).Contents (Elt F)),
    StableHlo.nullary main_c_6 (constantI S_ 32 4096#32),
    StableHlo.unary main_c_6 main_v26 (broadcastInDim S8192x1x32 ![] bcast_S_S8192x1x32 : (⟨S_, .i32⟩ : BufTy).Contents (Elt F) → (⟨S8192x1x32, .i32⟩ : BufTy).Contents (Elt F)),
    StableHlo.binary main_v17 main_v26 main_v27 (addi : (⟨S8192x1x32, .i32⟩ : BufTy).Contents (Elt F) → (⟨S8192x1x32, .i32⟩ : BufTy).Contents (Elt F) → (⟨S8192x1x32, .i32⟩ : BufTy).Contents (Elt F)),
    StableHlo.ternary main_v25 main_v27 main_v17 main_v28 (select : (⟨S8192x1x32, .i1⟩ : BufTy).Contents (Elt F) → (⟨S8192x1x32, .i32⟩ : BufTy).Contents (Elt F) → (⟨S8192x1x32, .i32⟩ : BufTy).Contents (Elt F) → (⟨S8192x1x32, .i32⟩ : BufTy).Contents (Elt F)),
    StableHlo.unary main_v23 main_v29 (broadcastInDim S8192x32x32 ![0, 1, 2] bcast_S8192x32x1_S8192x32x32_0_1_2 : (⟨S8192x32x1, .i32⟩ : BufTy).Contents (Elt F) → (⟨S8192x32x32, .i32⟩ : BufTy).Contents (Elt F)),
    StableHlo.unary main_v28 main_v30 (broadcastInDim S8192x32x32 ![0, 1, 2] bcast_S8192x1x32_S8192x32x32_0_1_2 : (⟨S8192x1x32, .i32⟩ : BufTy).Contents (Elt F) → (⟨S8192x32x32, .i32⟩ : BufTy).Contents (Elt F)),
    StableHlo.unary main_v29 main_v31 (broadcastInDim S8192x32x32x1 ![0, 1, 2] bcast_S8192x32x32_S8192x32x32x1_0_1_2 : (⟨S8192x32x32, .i32⟩ : BufTy).Contents (Elt F) → (⟨S8192x32x32x1, .i32⟩ : BufTy).Contents (Elt F)),
    StableHlo.unary main_v30 main_v32 (broadcastInDim S8192x32x32x1 ![0, 1, 2] bcast_S8192x32x32_S8192x32x32x1_0_1_2 : (⟨S8192x32x32, .i32⟩ : BufTy).Contents (Elt F) → (⟨S8192x32x32x1, .i32⟩ : BufTy).Contents (Elt F)),
    StableHlo.binary main_v31 main_v32 main_v33 ((fun a b => concatenate S8192x32x32x2 3 [⟨S8192x32x32x1, a⟩, ⟨S8192x32x32x1, b⟩] concatenates_S8192x32x32x1_S8192x32x32x1_S8192x32x32x2_d3) : (⟨S8192x32x32x1, .i32⟩ : BufTy).Contents (Elt F) → (⟨S8192x32x32x1, .i32⟩ : BufTy).Contents (Elt F) → (⟨S8192x32x32x2, .i32⟩ : BufTy).Contents (Elt F)),
    StableHlo.ternary main_v18 main_v33 main_arg1 main_v34 ((fun x i u => Host.scatter scatter_S4096x4096_S8192x32x32x2_S8192x32x32_n_01_01_3 (fun _ b => b) x i u) : (⟨S4096x4096, .f32⟩ : BufTy).Contents (Elt F) → (⟨S8192x32x32x2, .i32⟩ : BufTy).Contents (Elt F) → (⟨S8192x32x32, .f32⟩ : BufTy).Contents (Elt F) → (⟨S4096x4096, .f32⟩ : BufTy).Contents (Elt F)),
    StableHlo.unary main_v34 main_v35 ((transpose S4096x4096 [1, 0] · transposes_S4096x4096_S4096x4096_1_0) : (⟨S4096x4096, .f32⟩ : BufTy).Contents (Elt F) → (⟨S4096x4096, .f32⟩ : BufTy).Contents (Elt F)),
    StableHlo.binary main_arg0 main_v35 main_v36 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    StableHlo.unary main_arg2 main_v37 (broadcastInDim S1x4096 ![1] bcast_S4096_S1x4096_1 : (⟨S4096, .f32⟩ : BufTy).Contents (Elt F) → (⟨S1x4096, .f32⟩ : BufTy).Contents (Elt F)),
    StableHlo.unary main_v37 main_v38 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v36 main_v38 main_v39 (addf : (⟨S4096x4096, .f32⟩ : BufTy).Contents (Elt F) → (⟨S4096x4096, .f32⟩ : BufTy).Contents (Elt F) → (⟨S4096x4096, .f32⟩ : BufTy).Contents (Elt F)) ]

/-- The main function's 85 operations, in order, the helpers' bodies listed at their call sites. -/
abbrev ops : List (HloOp τ sig (Elt F)) :=
  [ StableHlo.nullary main_c (constantI S_ 32 128#32),
    StableHlo.TRef.unary (.of main_c : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S8192, .i32⟩) (broadcastInDim S8192 ![] bcast_S_S8192),
    StableHlo.TRef.binary (.of main_arg3 : StableHlo.TRef sig ⟨S8192, .i32⟩) (.of main_call0_v1 : StableHlo.TRef sig ⟨S8192, .i32⟩) (.of main_call0_v2 : StableHlo.TRef sig ⟨S8192, .i32⟩) Host.divsi,
    StableHlo.TRef.unary (.of main_arg3 : StableHlo.TRef sig ⟨S8192, .i32⟩) (.of main_call0_v3 : StableHlo.TRef sig ⟨S8192, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S8192, .i32⟩) (broadcastInDim S8192 ![] bcast_S_S8192),
    StableHlo.TRef.binary (.of main_call0_v3 : StableHlo.TRef sig ⟨S8192, .i32⟩) (.of main_call0_v5 : StableHlo.TRef sig ⟨S8192, .i32⟩) (.of main_call0_v6 : StableHlo.TRef sig ⟨S8192, .i1⟩) (cmpi .ne),
    StableHlo.TRef.unary (.of main_call0_v0 : StableHlo.TRef sig ⟨S_, .i32⟩) (.of main_call0_v7 : StableHlo.TRef sig ⟨S8192, .i32⟩) (broadcastInDim S8192 ![] bcast_S_S8192),
    StableHlo.TRef.binary (.of main_arg3 : StableHlo.TRef sig ⟨S8192, .i32⟩) (.of main_call0_v7 : StableHlo.TRef sig ⟨S8192, .i32⟩) (.of main_call0_v8 : StableHlo.TRef sig ⟨S8192, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S8192, .i32⟩) (broadcastInDim S8192 ![] bcast_S_S8192),
    StableHlo.TRef.binary (.of main_call0_v8 : StableHlo.TRef sig ⟨S8192, .i32⟩) (.of main_call0_v9 : StableHlo.TRef sig ⟨S8192, .i32⟩) (.of main_call0_v10 : StableHlo.TRef sig ⟨S8192, .i1⟩) (cmpi .ne),
    StableHlo.TRef.binary (.of main_call0_v6 : StableHlo.TRef sig ⟨S8192, .i1⟩) (.of main_call0_v10 : StableHlo.TRef sig ⟨S8192, .i1⟩) (.of main_call0_v11 : StableHlo.TRef sig ⟨S8192, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S8192, .i32⟩) (broadcastInDim S8192 ![] bcast_S_S8192),
    StableHlo.TRef.binary (.of main_call0_v2 : StableHlo.TRef sig ⟨S8192, .i32⟩) (.of main_call0_v12 : StableHlo.TRef sig ⟨S8192, .i32⟩) (.of main_call0_v13 : StableHlo.TRef sig ⟨S8192, .i32⟩) subi,
    StableHlo.TRef.ternary (.of main_call0_v11 : StableHlo.TRef sig ⟨S8192, .i1⟩) (.of main_call0_v13 : StableHlo.TRef sig ⟨S8192, .i32⟩) (.of main_call0_v2 : StableHlo.TRef sig ⟨S8192, .i32⟩) (.of main_v0 : StableHlo.TRef sig ⟨S8192, .i32⟩) select,
    StableHlo.nullary main_c_0 (constantI S_ 32 128#32),
    StableHlo.TRef.unary (.of main_c_0 : StableHlo.TRef sig ⟨S_, .i32⟩) (.of main_call1_v0 : StableHlo.TRef sig ⟨S_, .i32⟩) id,
    StableHlo.TRef.nullary (.of main_call1_c : StableHlo.TRef sig ⟨S_, .i32⟩) (constantI S_ 32 0#32),
    StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq),
    StableHlo.TRef.nullary (.of main_call1_c_0 : StableHlo.TRef sig ⟨S_, .i32⟩) (constantI S_ 32 1#32),
    StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) (.of main_call1_v2 : StableHlo.TRef sig ⟨S_, .i32⟩) select,
    StableHlo.TRef.unary (.of main_call1_v2 : StableHlo.TRef sig ⟨S_, .i32⟩) (.of main_call1_v3 : StableHlo.TRef sig ⟨S8192, .i32⟩) (broadcastInDim S8192 ![] bcast_S_S8192),
    StableHlo.TRef.binary (.of main_arg3 : StableHlo.TRef sig ⟨S8192, .i32⟩) (.of main_call1_v3 : StableHlo.TRef sig ⟨S8192, .i32⟩) (.of main_call1_v4 : StableHlo.TRef sig ⟨S8192, .i32⟩) Host.remsi,
    StableHlo.TRef.nullary (.of main_call1_c_1 : StableHlo.TRef sig ⟨S_, .i32⟩) (constantI S_ 32 0#32),
    StableHlo.TRef.unary (.of main_call1_c_1 : StableHlo.TRef sig ⟨S_, .i32⟩) (.of main_call1_v5 : StableHlo.TRef sig ⟨S8192, .i32⟩) (broadcastInDim S8192 ![] bcast_S_S8192),
    StableHlo.TRef.binary (.of main_call1_v4 : StableHlo.TRef sig ⟨S8192, .i32⟩) (.of main_call1_v5 : StableHlo.TRef sig ⟨S8192, .i32⟩) (.of main_call1_v6 : StableHlo.TRef sig ⟨S8192, .i1⟩) (cmpi .ne),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v7 : StableHlo.TRef sig ⟨S8192, .i32⟩) (broadcastInDim S8192 ![] bcast_S_S8192),
    StableHlo.TRef.binary (.of main_call1_v4 : StableHlo.TRef sig ⟨S8192, .i32⟩) (.of main_call1_v7 : StableHlo.TRef sig ⟨S8192, .i32⟩) (.of main_call1_v8 : StableHlo.TRef sig ⟨S8192, .i1⟩) (cmpi .slt),
    StableHlo.TRef.nullary (.of main_call1_c_3 : StableHlo.TRef sig ⟨S_, .i32⟩) (constantI S_ 32 0#32),
    StableHlo.TRef.binary (.of main_call1_v2 : StableHlo.TRef sig ⟨S_, .i32⟩) (.of main_call1_c_3 : StableHlo.TRef sig ⟨S_, .i32⟩) (.of main_call1_v9 : StableHlo.TRef sig ⟨S_, .i1⟩) (cmpi .slt),
    StableHlo.TRef.unary (.of main_call1_v9 : StableHlo.TRef sig ⟨S_, .i1⟩) (.of main_call1_v10 : StableHlo.TRef sig ⟨S8192, .i1⟩) (broadcastInDim S8192 ![] bcast_S_S8192),
    StableHlo.TRef.binary (.of main_call1_v8 : StableHlo.TRef sig ⟨S8192, .i1⟩) (.of main_call1_v10 : StableHlo.TRef sig ⟨S8192, .i1⟩) (.of main_call1_v11 : StableHlo.TRef sig ⟨S8192, .i1⟩) (cmpi .ne),
    StableHlo.TRef.binary (.of main_call1_v11 : StableHlo.TRef sig ⟨S8192, .i1⟩) (.of main_call1_v6 : StableHlo.TRef sig ⟨S8192, .i1⟩) (.of main_call1_v12 : StableHlo.TRef sig ⟨S8192, .i1⟩) andi,
    StableHlo.TRef.unary (.of main_call1_v2 : StableHlo.TRef sig ⟨S_, .i32⟩) (.of main_call1_v13 : StableHlo.TRef sig ⟨S8192, .i32⟩) (broadcastInDim S8192 ![] bcast_S_S8192),
    StableHlo.TRef.binary (.of main_call1_v4 : StableHlo.TRef sig ⟨S8192, .i32⟩) (.of main_call1_v13 : StableHlo.TRef sig ⟨S8192, .i32⟩) (.of main_call1_v14 : StableHlo.TRef sig ⟨S8192, .i32⟩) addi,
    StableHlo.TRef.ternary (.of main_call1_v12 : StableHlo.TRef sig ⟨S8192, .i1⟩) (.of main_call1_v14 : StableHlo.TRef sig ⟨S8192, .i32⟩) (.of main_call1_v4 : StableHlo.TRef sig ⟨S8192, .i32⟩) (.of main_v1 : StableHlo.TRef sig ⟨S8192, .i32⟩) select,
    StableHlo.unary main_v0 main_v2 (broadcastInDim S8192x1x1 ![0] bcast_S8192_S8192x1x1_0 : (⟨S8192, .i32⟩ : BufTy).Contents (Elt F) → (⟨S8192x1x1, .i32⟩ : BufTy).Contents (Elt F)),
    StableHlo.nullary main_c_1 (constantI S_ 32 32#32),
    StableHlo.unary main_c_1 main_v3 (broadcastInDim S8192x1x1 ![] bcast_S_S8192x1x1 : (⟨S_, .i32⟩ : BufTy).Contents (Elt F) → (⟨S8192x1x1, .i32⟩ : BufTy).Contents (Elt F)),
    StableHlo.binary main_v2 main_v3 main_v4 (muli : (⟨S8192x1x1, .i32⟩ : BufTy).Contents (Elt F) → (⟨S8192x1x1, .i32⟩ : BufTy).Contents (Elt F) → (⟨S8192x1x1, .i32⟩ : BufTy).Contents (Elt F)),
    StableHlo.nullary main_v5 (iotaInDim S32 32 0),
    StableHlo.unary main_v5 main_v6 (broadcastInDim S1x32x1 ![1] bcast_S32_S1x32x1_1 : (⟨S32, .i32⟩ : BufTy).Contents (Elt F) → (⟨S1x32x1, .i32⟩ : BufTy).Contents (Elt F)),
    StableHlo.unary main_v4 main_v7 (broadcastInDim S8192x32x1 ![0, 1, 2] bcast_S8192x1x1_S8192x32x1_0_1_2 : (⟨S8192x1x1, .i32⟩ : BufTy).Contents (Elt F) → (⟨S8192x32x1, .i32⟩ : BufTy).Contents (Elt F)),
    StableHlo.unary main_v6 main_v8 (broadcastInDim S8192x32x1 ![0, 1, 2] bcast_S1x32x1_S8192x32x1_0_1_2 : (⟨S1x32x1, .i32⟩ : BufTy).Contents (Elt F) → (⟨S8192x32x1, .i32⟩ : BufTy).Contents (Elt F)),
    StableHlo.binary main_v7 main_v8 main_v9 (addi : (⟨S8192x32x1, .i32⟩ : BufTy).Contents (Elt F) → (⟨S8192x32x1, .i32⟩ : BufTy).Contents (Elt F) → (⟨S8192x32x1, .i32⟩ : BufTy).Contents (Elt F)),
    StableHlo.unary main_v1 main_v10 (broadcastInDim S8192x1x1 ![0] bcast_S8192_S8192x1x1_0 : (⟨S8192, .i32⟩ : BufTy).Contents (Elt F) → (⟨S8192x1x1, .i32⟩ : BufTy).Contents (Elt F)),
    StableHlo.nullary main_c_2 (constantI S_ 32 32#32),
    StableHlo.unary main_c_2 main_v11 (broadcastInDim S8192x1x1 ![] bcast_S_S8192x1x1 : (⟨S_, .i32⟩ : BufTy).Contents (Elt F) → (⟨S8192x1x1, .i32⟩ : BufTy).Contents (Elt F)),
    StableHlo.binary main_v10 main_v11 main_v12 (muli : (⟨S8192x1x1, .i32⟩ : BufTy).Contents (Elt F) → (⟨S8192x1x1, .i32⟩ : BufTy).Contents (Elt F) → (⟨S8192x1x1, .i32⟩ : BufTy).Contents (Elt F)),
    StableHlo.nullary main_v13 (iotaInDim S32 32 0),
    StableHlo.unary main_v13 main_v14 (broadcastInDim S1x1x32 ![2] bcast_S32_S1x1x32_2 : (⟨S32, .i32⟩ : BufTy).Contents (Elt F) → (⟨S1x1x32, .i32⟩ : BufTy).Contents (Elt F)),
    StableHlo.unary main_v12 main_v15 (broadcastInDim S8192x1x32 ![0, 1, 2] bcast_S8192x1x1_S8192x1x32_0_1_2 : (⟨S8192x1x1, .i32⟩ : BufTy).Contents (Elt F) → (⟨S8192x1x32, .i32⟩ : BufTy).Contents (Elt F)),
    StableHlo.unary main_v14 main_v16 (broadcastInDim S8192x1x32 ![0, 1, 2] bcast_S1x1x32_S8192x1x32_0_1_2 : (⟨S1x1x32, .i32⟩ : BufTy).Contents (Elt F) → (⟨S8192x1x32, .i32⟩ : BufTy).Contents (Elt F)),
    StableHlo.binary main_v15 main_v16 main_v17 (addi : (⟨S8192x1x32, .i32⟩ : BufTy).Contents (Elt F) → (⟨S8192x1x32, .i32⟩ : BufTy).Contents (Elt F) → (⟨S8192x1x32, .i32⟩ : BufTy).Contents (Elt F)),
    StableHlo.nullary main_cst (constant S_ .f32 0x00000000#32),
    StableHlo.unary main_cst main_v18 (broadcastInDim S4096x4096 ![] bcast_S_S4096x4096 : (⟨S_, .f32⟩ : BufTy).Contents (Elt F) → (⟨S4096x4096, .f32⟩ : BufTy).Contents (Elt F)),
    StableHlo.nullary main_c_3 (constantI S_ 32 0#32),
    StableHlo.unary main_c_3 main_v19 (broadcastInDim S8192x32x1 ![] bcast_S_S8192x32x1 : (⟨S_, .i32⟩ : BufTy).Contents (Elt F) → (⟨S8192x32x1, .i32⟩ : BufTy).Contents (Elt F)),
    StableHlo.binary main_v9 main_v19 main_v20 (cmpi .slt : (⟨S8192x32x1, .i32⟩ : BufTy).Contents (Elt F) → (⟨S8192x32x1, .i32⟩ : BufTy).Contents (Elt F) → (⟨S8192x32x1, .i1⟩ : BufTy).Contents (Elt F)),
    StableHlo.nullary main_c_4 (constantI S_ 32 4096#32),
    StableHlo.unary main_c_4 main_v21 (broadcastInDim S8192x32x1 ![] bcast_S_S8192x32x1 : (⟨S_, .i32⟩ : BufTy).Contents (Elt F) → (⟨S8192x32x1, .i32⟩ : BufTy).Contents (Elt F)),
    StableHlo.binary main_v9 main_v21 main_v22 (addi : (⟨S8192x32x1, .i32⟩ : BufTy).Contents (Elt F) → (⟨S8192x32x1, .i32⟩ : BufTy).Contents (Elt F) → (⟨S8192x32x1, .i32⟩ : BufTy).Contents (Elt F)),
    StableHlo.ternary main_v20 main_v22 main_v9 main_v23 (select : (⟨S8192x32x1, .i1⟩ : BufTy).Contents (Elt F) → (⟨S8192x32x1, .i32⟩ : BufTy).Contents (Elt F) → (⟨S8192x32x1, .i32⟩ : BufTy).Contents (Elt F) → (⟨S8192x32x1, .i32⟩ : BufTy).Contents (Elt F)),
    StableHlo.nullary main_c_5 (constantI S_ 32 0#32),
    StableHlo.unary main_c_5 main_v24 (broadcastInDim S8192x1x32 ![] bcast_S_S8192x1x32 : (⟨S_, .i32⟩ : BufTy).Contents (Elt F) → (⟨S8192x1x32, .i32⟩ : BufTy).Contents (Elt F)),
    StableHlo.binary main_v17 main_v24 main_v25 (cmpi .slt : (⟨S8192x1x32, .i32⟩ : BufTy).Contents (Elt F) → (⟨S8192x1x32, .i32⟩ : BufTy).Contents (Elt F) → (⟨S8192x1x32, .i1⟩ : BufTy).Contents (Elt F)),
    StableHlo.nullary main_c_6 (constantI S_ 32 4096#32),
    StableHlo.unary main_c_6 main_v26 (broadcastInDim S8192x1x32 ![] bcast_S_S8192x1x32 : (⟨S_, .i32⟩ : BufTy).Contents (Elt F) → (⟨S8192x1x32, .i32⟩ : BufTy).Contents (Elt F)),
    StableHlo.binary main_v17 main_v26 main_v27 (addi : (⟨S8192x1x32, .i32⟩ : BufTy).Contents (Elt F) → (⟨S8192x1x32, .i32⟩ : BufTy).Contents (Elt F) → (⟨S8192x1x32, .i32⟩ : BufTy).Contents (Elt F)),
    StableHlo.ternary main_v25 main_v27 main_v17 main_v28 (select : (⟨S8192x1x32, .i1⟩ : BufTy).Contents (Elt F) → (⟨S8192x1x32, .i32⟩ : BufTy).Contents (Elt F) → (⟨S8192x1x32, .i32⟩ : BufTy).Contents (Elt F) → (⟨S8192x1x32, .i32⟩ : BufTy).Contents (Elt F)),
    StableHlo.unary main_v23 main_v29 (broadcastInDim S8192x32x32 ![0, 1, 2] bcast_S8192x32x1_S8192x32x32_0_1_2 : (⟨S8192x32x1, .i32⟩ : BufTy).Contents (Elt F) → (⟨S8192x32x32, .i32⟩ : BufTy).Contents (Elt F)),
    StableHlo.unary main_v28 main_v30 (broadcastInDim S8192x32x32 ![0, 1, 2] bcast_S8192x1x32_S8192x32x32_0_1_2 : (⟨S8192x1x32, .i32⟩ : BufTy).Contents (Elt F) → (⟨S8192x32x32, .i32⟩ : BufTy).Contents (Elt F)),
    StableHlo.unary main_v29 main_v31 (broadcastInDim S8192x32x32x1 ![0, 1, 2] bcast_S8192x32x32_S8192x32x32x1_0_1_2 : (⟨S8192x32x32, .i32⟩ : BufTy).Contents (Elt F) → (⟨S8192x32x32x1, .i32⟩ : BufTy).Contents (Elt F)),
    StableHlo.unary main_v30 main_v32 (broadcastInDim S8192x32x32x1 ![0, 1, 2] bcast_S8192x32x32_S8192x32x32x1_0_1_2 : (⟨S8192x32x32, .i32⟩ : BufTy).Contents (Elt F) → (⟨S8192x32x32x1, .i32⟩ : BufTy).Contents (Elt F)),
    StableHlo.binary main_v31 main_v32 main_v33 ((fun a b => concatenate S8192x32x32x2 3 [⟨S8192x32x32x1, a⟩, ⟨S8192x32x32x1, b⟩] concatenates_S8192x32x32x1_S8192x32x32x1_S8192x32x32x2_d3) : (⟨S8192x32x32x1, .i32⟩ : BufTy).Contents (Elt F) → (⟨S8192x32x32x1, .i32⟩ : BufTy).Contents (Elt F) → (⟨S8192x32x32x2, .i32⟩ : BufTy).Contents (Elt F)),
    StableHlo.ternary main_v18 main_v33 main_arg1 main_v34 ((fun x i u => Host.scatter scatter_S4096x4096_S8192x32x32x2_S8192x32x32_n_01_01_3 (fun _ b => b) x i u) : (⟨S4096x4096, .f32⟩ : BufTy).Contents (Elt F) → (⟨S8192x32x32x2, .i32⟩ : BufTy).Contents (Elt F) → (⟨S8192x32x32, .f32⟩ : BufTy).Contents (Elt F) → (⟨S4096x4096, .f32⟩ : BufTy).Contents (Elt F)),
    StableHlo.unary main_v34 main_v35 ((transpose S4096x4096 [1, 0] · transposes_S4096x4096_S4096x4096_1_0) : (⟨S4096x4096, .f32⟩ : BufTy).Contents (Elt F) → (⟨S4096x4096, .f32⟩ : BufTy).Contents (Elt F)),
    StableHlo.binary main_arg0 main_v35 main_v36 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    StableHlo.unary main_arg2 main_v37 (broadcastInDim S1x4096 ![1] bcast_S4096_S1x4096_1 : (⟨S4096, .f32⟩ : BufTy).Contents (Elt F) → (⟨S1x4096, .f32⟩ : BufTy).Contents (Elt F)),
    StableHlo.unary main_v37 main_v38 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v36 main_v38 main_v39 (addf : (⟨S4096x4096, .f32⟩ : BufTy).Contents (Elt F) → (⟨S4096x4096, .f32⟩ : BufTy).Contents (Elt F) → (⟨S4096x4096, .f32⟩ : BufTy).Contents (Elt F)) ]

/-- The whole line is the five stretches one after the other. -/
theorem ops_split : (ops : List (HloOp τ sig (Elt F))) = op0 :: (opsFD ++ (op1 :: (opsRem ++ opsRest))) := rfl

/-- A line's first operation, then the rest. -/
theorem seq_cons' (op : HloOp τ sig (Elt F)) (l : List (HloOp τ sig (Elt F))) :
    (seq (op :: l) : Prog (TpuEff nD τ sig (Elt F) (Pipeline.Sig Λ₀ (Fin 0) fun p => (pcfgs (F := F) p).Adm) .tc) PUnit)
      = (hlo rfl op fun _ => .ret (⟨⟩ : PUnit)) >>= fun _ => seq l := rfl

/-- The quotient helper's body at this call is its stretch: its select helper unfolded, sequencing re-associated. -/
theorem fd_eq : fn_floor_divide.body (F := F) (.of main_arg3) (.of main_c) main_call0 = seq opsFD := by
  simp only [fn_floor_divide.body, fn_where.body, seq, bind_assoc, pure_bind]

/-- The remainder helper's body at this call is its stretch. -/
theorem rem_eq : fn_remainder.body (F := F) (.of main_arg3) (.of main_c_0) main_call1 = seq opsRem := by
  simp only [fn_remainder.body, fn_where_0.body, seq, bind_assoc, pure_bind]

/-- The main function is the straight line of the 85 operations: a constant, the quotient helper's body, a
    constant, the remainder helper's body, then its own operations. -/
theorem main_eq (c : Dev nD) : main (F := F) c = seq ops := by
  rw [ops_split, seq_cons', seq_append, ← fd_eq, seq_cons', seq_append, ← rem_eq]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., unary_bufs_sub .., nullary_bufs_sub ..,
    unary_bufs_sub .., binary_bufs_sub .., nullary_bufs_sub .., unary_bufs_sub .., unary_bufs_sub .., unary_bufs_sub ..,
    binary_bufs_sub .., unary_bufs_sub .., nullary_bufs_sub .., unary_bufs_sub .., binary_bufs_sub .., nullary_bufs_sub ..,
    unary_bufs_sub .., unary_bufs_sub .., unary_bufs_sub .., binary_bufs_sub .., nullary_bufs_sub .., unary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., unary_bufs_sub .., unary_bufs_sub ..,
    binary_bufs_sub .., ternary_bufs_sub .., unary_bufs_sub .., binary_bufs_sub .., unary_bufs_sub .., unary_bufs_sub ..,
    binary_bufs_sub ..⟩

/-- Every buffer ends at the fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefDefs.lean ====
/-
  The reference's result as a function of its four arguments' contents, written with the program's own
  pure operations: the block row and block column of each of the 8192 blocks (the floored quotient and
  the non-negative remainder of the block id by 128, as the outlined helpers spell them), the
  scatter coordinates of every block element (32 * block row + i, 32 * block column + j, each wrapped
  into [0, 4096) as a negative index would be), the dense 4096 x 4096 matrix scattered from the blocks
  over zeros, and x * dense^T + bias.
-/
import proofs.«168420_j48112223650319_1_alg».proof.Proof.Gen.ReferenceIdeal

noncomputable section

namespace Cert.ReferenceIdeal.RefRun

open Cert.ReferenceIdeal Cert.ReferenceIdeal.Gen Idealize.ShloMosaic

variable {F : FTy → Type} [FloatOps F]

/-- The scalar 128 as the helpers receive it (the conversion to its own type is the identity). -/
def c128 : IVec S_ 32 := id (constantI S_ 32 128#32)

/-- The truncated quotient of each id by 128. -/
def quot (ids : IVec S8192 32) : IVec S8192 32 :=
  Host.divsi ids (broadcastInDim S8192 ![] bcast_S_S8192 c128)

/-- floor(id / 128): the truncated quotient, less one where the signs of id and 128 differ and the
    remainder is not zero. -/
def blockRow (ids : IVec S8192 32) : IVec S8192 32 :=
  select
    (andi
      (cmpi .ne (signi ids) (broadcastInDim S8192 ![] bcast_S_S8192 (signi c128)))
      (cmpi .ne (Host.remsi ids (broadcastInDim S8192 ![] bcast_S_S8192 c128))
        (broadcastInDim S8192 ![] bcast_S_S8192 (constantI S_ 32 0#32))))
    (subi (quot ids) (broadcastInDim S8192 ![] bcast_S_S8192 (constantI S_ 32 1#32)))
    (quot ids)

/-- The divisor the remainder helper uses: 1 if 128 were 0, else 128. -/
def divisor : IVec S_ 32 :=
  select (cmpi .eq c128 (constantI S_ 32 0#32)) (constantI S_ 32 1#32) c128

/-- The truncated remainder of each id by the divisor. -/
def rem0 (ids : IVec S8192 32) : IVec S8192 32 :=
  Host.remsi ids (broadcastInDim S8192 ![] bcast_S_S8192 divisor)

/-- id mod 128 with the divisor's sign: the truncated remainder, plus the divisor where the remainder
    is not zero and its sign differs from the divisor's. -/
def blockCol (ids : IVec S8192 32) : IVec S8192 32 :=
  select
    (andi
      (cmpi .ne
        (cmpi .slt (rem0 ids) (broadcastInDim S8192 ![] bcast_S_S8192 (constantI S_ 32 0#32)))
        (broadcastInDim S8192 ![] bcast_S_S8192 (cmpi .slt divisor (constantI S_ 32 0#32))))
      (cmpi .ne (rem0 ids) (broadcastInDim S8192 ![] bcast_S_S8192 (constantI S_ 32 0#32))))
    (addi (rem0 ids) (broadcastInDim S8192 ![] bcast_S_S8192 divisor))
    (rem0 ids)

/-- 32 * r + i at (block, i, 0): the row coordinate before wrapping. -/
def rowRaw (r : IVec S8192 32) : IVec S8192x32x1 32 :=
  addi
    (broadcastInDim S8192x32x1 ![0, 1, 2] bcast_S8192x1x1_S8192x32x1_0_1_2
      (muli (broadcastInDim S8192x1x1 ![0] bcast_S8192_S8192x1x1_0 r)
        (broadcastInDim S8192x1x1 ![] bcast_S_S8192x1x1 (constantI S_ 32 32#32))))
    (broadcastInDim S8192x32x1 ![0, 1, 2] bcast_S1x32x1_S8192x32x1_0_1_2
      (broadcastInDim S1x32x1 ![1] bcast_S32_S1x32x1_1 (iotaInDim S32 32 0)))

/-- 32 * c + j at (block, 0, j): the column coordinate before wrapping. -/
def colRaw (c : IVec S8192 32) : IVec S8192x1x32 32 :=
  addi
    (broadcastInDim S8192x1x32 ![0, 1, 2] bcast_S8192x1x1_S8192x1x32_0_1_2
      (muli (broadcastInDim S8192x1x1 ![0] bcast_S8192_S8192x1x1_0 c)
        (broadcastInDim S8192x1x1 ![] bcast_S_S8192x1x1 (constantI S_ 32 32#32))))
    (broadcastInDim S8192x1x32 ![0, 1, 2] bcast_S1x1x32_S8192x1x32_0_1_2
      (broadcastInDim S1x1x32 ![2] bcast_S32_S1x1x32_2 (iotaInDim S32 32 0)))

/-- The row coordinate, 4096 added where negative. -/
def rowWrap (r : IVec S8192 32) : IVec S8192x32x1 32 :=
  select (cmpi .slt (rowRaw r) (broadcastInDim S8192x32x1 ![] bcast_S_S8192x32x1 (constantI S_ 32 0#32)))
    (addi (rowRaw r) (broadcastInDim S8192x32x1 ![] bcast_S_S8192x32x1 (constantI S_ 32 4096#32)))
    (rowRaw r)

/-- The column coordinate, 4096 added where negative. -/
def colWrap (c : IVec S8192 32) : IVec S8192x1x32 32 :=
  select (cmpi .slt (colRaw c) (broadcastInDim S8192x1x32 ![] bcast_S_S8192x1x32 (constantI S_ 32 0#32)))
    (addi (colRaw c) (broadcastInDim S8192x1x32 ![] bcast_S_S8192x1x32 (constantI S_ 32 4096#32)))
    (colRaw c)

/-- The scatter's index table: at (block, i, j, 0) the wrapped row coordinate, at (block, i, j, 1) the
    wrapped column coordinate. -/
def idxOf (r c : IVec S8192 32) : IVec S8192x32x32x2 32 :=
  concatenate S8192x32x32x2 3
    [⟨S8192x32x32x1,
        broadcastInDim S8192x32x32x1 ![0, 1, 2] bcast_S8192x32x32_S8192x32x32x1_0_1_2
          (broadcastInDim S8192x32x32 ![0, 1, 2] bcast_S8192x32x1_S8192x32x32_0_1_2 (rowWrap r))⟩,
      ⟨S8192x32x32x1,
        broadcastInDim S8192x32x32x1 ![0, 1, 2] bcast_S8192x32x32_S8192x32x32x1_0_1_2
          (broadcastInDim S8192x32x32 ![0, 1, 2] bcast_S8192x1x32_S8192x32x32_0_1_2 (colWrap c))⟩]
    concatenates_S8192x32x32x1_S8192x32x32x1_S8192x32x32x2_d3

/-- The dense matrix: zeros overwritten, update by update, by the blocks' elements at their coordinates. -/
def dense (wd : FVec F S8192x32x32 .f32) (ids : IVec S8192 32) : FVec F S4096x4096 .f32 :=
  Host.scatter scatter_S4096x4096_S8192x32x32x2_S8192x32x32_n_01_01_3 (fun _ b => b)
    (broadcastInDim S4096x4096 ![] bcast_S_S4096x4096 (constant S_ .f32 0x00000000#32))
    (idxOf (blockRow ids) (blockCol ids)) wd

/-- The result: x contracted with the transposed dense matrix, plus the bias along the columns. -/
def out (x : FVec F S4096x4096 .f32) (wd : FVec F S8192x32x32 .f32) (b : FVec F S4096 .f32) (ids : IVec S8192 32) :
    FVec F S4096x4096 .f32 :=
  addf
    (Host.dotGeneral dot_S4096x4096_S4096x4096_S4096x4096_1_0_0_1_n_n none x
      (transpose S4096x4096 [1, 0] (dense wd ids) transposes_S4096x4096_S4096x4096_1_0))
    (broadcastInDim S4096x4096 ![0, 1] bcast_S1x4096_S4096x4096_0_1
      (broadcastInDim S1x4096 ![1] bcast_S4096_S1x4096_1 b))

end Cert.ReferenceIdeal.RefRun

end
-- ==== Proof.RefRun.lean ====
/-
  The reference's run read at its result and argument buffers. RefOps.lean has every buffer end at the
  fold of the eighty-five operations over the launch contents; here that fold is computed at the result
  buffer, where it is the term `out` of RefDefs.lean applied to the four arguments' contents, and at the
  four argument buffers, which no operation writes.
-/
import proofs.«168420_j48112223650319_1_alg».proof.Proof.RefOps
import proofs.«168420_j48112223650319_1_alg».proof.Proof.RefDefs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.scatter Host.divsi Host.remsi concatenate in
set_option maxRecDepth 16384 in
set_option maxHeartbeats 2000000 in
/-- The fold at the result buffer is `out` of the arguments' contents, by computation: each operation's
    result at its own buffer is its function's value of its operands' contents, at any other buffer what
    was there. The helpers' typed operations are first unfolded to the plain ones (their transports along a
    reflexive type equation are the identity); the concatenation of the two coordinate tables is named as
    one function of the two meanwhile, so that the single rewriting pass reaches its two arguments; the
    scatter, the integer division and the concatenation are kept folded. What is left is, operation for
    operation, the definitions of RefDefs.lean unfolded. -/
theorem after_out (V : Valuation τ sig (Elt F)) :
    after ops V (main_v39 : DevRef τ sig)
      = out (V (main_arg0 : DevRef τ sig)) (V (main_arg1 : DevRef τ sig)) (V (main_arg2 : DevRef τ sig)) (V (main_arg3 : DevRef τ sig)) := by
  simp only [ops, TRef.nullary, TRef.unary, TRef.binary, TRef.ternary, TRef.toBuf, TRef.ofBuf, cast_eq]
  generalize hcat : (fun (a b : (⟨S8192x32x32x1, .i32⟩ : BufTy).Contents (Elt F)) =>
    concatenate S8192x32x32x2 3 [⟨S8192x32x32x1, a⟩, ⟨S8192x32x32x1, b⟩] concatenates_S8192x32x32x1_S8192x32x32x1_S8192x32x32x2_d3) = cat
  after_results_simp
  subst hcat
  rfl

/-- No operation writes an argument: the fold leaves each at its launch contents. -/
theorem after_arg0 (V : Valuation τ sig (Elt F)) : after ops V (main_arg0 : DevRef τ sig) = V (main_arg0 : DevRef τ sig) := by
  after_results_simp
theorem after_arg1 (V : Valuation τ sig (Elt F)) : after ops V (main_arg1 : DevRef τ sig) = V (main_arg1 : DevRef τ sig) := by
  after_results_simp
theorem after_arg2 (V : Valuation τ sig (Elt F)) : after ops V (main_arg2 : DevRef τ sig) = V (main_arg2 : DevRef τ sig) := by
  after_results_simp
theorem after_arg3 (V : Valuation τ sig (Elt F)) : after ops V (main_arg3 : DevRef τ sig) = V (main_arg3 : DevRef τ sig) := by
  after_results_simp

/-- On every device, for any float values, from any memory with zero counters: every weakly fair execution
    of the main function terminates with the result buffer at `out` of the four arguments' launch contents
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39) = out (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v39).trans (after_out (launchContents m c)),
      (h c main_arg0).trans (after_arg0 (launchContents m c)),
      (h c main_arg1).trans (after_arg1 (launchContents m c)),
      (h c main_arg2).trans (after_arg2 (launchContents m c)),
      (h c main_arg3).trans (after_arg3 (launchContents m c))⟩)
    (run_after m ρ)

end Cert.ReferenceIdeal.RefRun

end
-- ==== Proof.KerHostXB.lean ====
/-
  What the kernel's first and third windows hold when the region is entered.

  The host operations before the region leave `x` itself in the first window's array (the change of float
  format is the identity on extended reals) and the bias, laid out as one row, in the third window's array.
-/
import proofs.«168420_j48112223650319_1_alg».proof.Proof.Gen.KernelIdeal.Frame.Runs
import Idealize.ShloMosaic.Lib.StableHlo.Run
import Idealize.ShloMosaic.Lib.ValueIdx
import Idealize.ShloMosaic.Lib.Pipeline.Value
import Idealize.ShloMosaic.PureOps.Ideal

noncomputable section

namespace Cert.KernelIdeal.KerHost

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

set_option maxHeartbeats 1000000 in
/-- The first window's array is `x`. -/
theorem V_x (c : Dev nD) : @Eq (S4096x4096.Idx → EReal) (Gen.V m c main_v35) (m (c, Proc.tc.devRef main_arg0)) := by
  have e : @Eq (S4096x4096.Idx → EReal) (Gen.V m c main_v35)
      (truncf (F := Ideal) .bf16 (m (c, Proc.tc.devRef main_arg0) : FVec Ideal S4096x4096 .f32) bitsLt_bf16_f32) := by
    dsimp only [Gen.V]
    simp only [Gen.hostOps0, Gen.hostOps0_1, Gen.hostOps0_2, Gen.hostOps0_3, Gen.hostOps0_4, List.flatten_cons, List.flatten_nil,
      List.append_nil, List.cons_append, List.nil_append]
    simp only [TRef.nullary, TRef.unary, TRef.binary, TRef.ternary, TRef.toBuf, TRef.ofBuf, cast_eq]
    after_results_simp
  rw [e]
  rfl

set_option maxHeartbeats 1000000 in
/-- The third window's array is the bias as one row. -/
theorem V_b (c : Dev nD) (n : Fin 4096) :
    (Gen.V m c main_v37 : S1x4096.Idx → EReal) (ix2 (0 : Fin 1) n) = (m (c, Proc.tc.devRef main_arg2) : S4096.Idx → EReal) (ix1 n) := by
  have e : @Eq (S1x4096.Idx → EReal) (Gen.V m c main_v37)
      (shapeCast S1x4096 (m (c, Proc.tc.devRef main_arg2) : S4096.Idx → EReal) shapeCasts_S4096_S1x4096) := by
    dsimp only [Gen.V]
    simp only [Gen.hostOps0, Gen.hostOps0_1, Gen.hostOps0_2, Gen.hostOps0_3, Gen.hostOps0_4, List.flatten_cons, List.flatten_nil,
      List.append_nil, List.cons_append, List.nil_append]
    simp only [TRef.nullary, TRef.unary, TRef.binary, TRef.ternary, TRef.toBuf, TRef.ofBuf, cast_eq]
    after_results_simp
    rfl
  rw [e]
  refine shapeCast_apply _ _ (ix2 (0 : Fin 1) n) (ix1 n) ?_
  rw [Shape.rowMajor_val_one, Shape.rowMajor_val_two]
  show n.val = 0 * 4096 + n.val
  omega

end Cert.KernelIdeal.KerHost

end
-- ==== Proof.KerHostW.lean ====
/-
  What the kernel's second window holds when the region is entered: the matrix scattered, over zeros, from the
  blocks transposed within themselves, block `i` at block coordinates (block column i, block row i) — the same
  floored quotient and non-negative remainder of the block id by 128, and the same wrapped coordinates
  32·(block coordinate) + offset, that the reference computes, with the two block coordinates in the other order.
  (The change of float format after the scatter is the identity on extended reals.)
-/
import proofs.«168420_j48112223650319_1_alg».proof.Proof.Gen.KernelIdeal.Frame.Runs
import proofs.«168420_j48112223650319_1_alg».proof.Proof.RefDefs
import Idealize.ShloMosaic.Lib.StableHlo.Run
import Idealize.ShloMosaic.PureOps.Ideal

noncomputable section

namespace Cert.KernelIdeal.KerHost

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

attribute [local irreducible] Host.scatter Host.divsi Host.remsi concatenate in
set_option maxRecDepth 16384 in
set_option maxHeartbeats 2000000 in
/-- The second window's array: the scatter of the transposed blocks at (block column, block row); its coordinate
    table is, operation for operation, the reference's own coordinate chain with the two block coordinates swapped. -/
theorem V_w (c : Dev nD) : @Eq (S4096x4096.Idx → EReal) (Gen.V m c main_v36)
    (truncf (F := Ideal) .bf16 (Host.scatter scatter_S4096x4096_S8192x32x32x2_S8192x32x32_n_01_01_3 (fun _ b => b)
      (broadcastInDim S4096x4096 ![] bcast_S_S4096x4096 (constant (F := Ideal) S_ .f32 0x00000000#32))
      (Cert.ReferenceIdeal.RefRun.idxOf (Cert.ReferenceIdeal.RefRun.blockCol (m (c, Proc.tc.devRef main_arg3) : IVec S8192 32))
        (Cert.ReferenceIdeal.RefRun.blockRow (m (c, Proc.tc.devRef main_arg3) : IVec S8192 32)))
      (transpose S8192x32x32 [0, 2, 1] (m (c, Proc.tc.devRef main_arg1) : FVec Ideal S8192x32x32 .f32) transposes_S8192x32x32_S8192x32x32_0_2_1)) bitsLt_bf16_f32) := by
  dsimp only [Gen.V]
  simp only [Gen.hostOps0, Gen.hostOps0_1, Gen.hostOps0_2, Gen.hostOps0_3, Gen.hostOps0_4, List.flatten_cons, List.flatten_nil,
    List.append_nil, List.cons_append, List.nil_append]
  simp only [TRef.nullary, TRef.unary, TRef.binary, TRef.ternary, TRef.toBuf, TRef.ofBuf, cast_eq]
  generalize hcat : (fun (a b : (⟨S8192x32x32x1, .i32⟩ : BufTy).Contents (Elt Ideal)) =>
    concatenate S8192x32x32x2 3 [⟨S8192x32x32x1, a⟩, ⟨S8192x32x32x1, b⟩] concatenates_S8192x32x32x1_S8192x32x32x1_S8192x32x32x2_d3) = cat
  after_results_simp
  subst hcat
  rfl

end Cert.KernelIdeal.KerHost

end
-- ==== Proof.IdxRead.lean ====
/-
  The scatter's index table read entry by entry.

  For block `i` with block coordinate `B` (a 32-bit word) and an offset `p < 32` inside the block, the
  coordinate the table holds is  wrap (32·B + p),  where `wrap v` adds 4096 to a negative `v` (all in
  32-bit two's-complement arithmetic). The table's entry (i, p, q, 0) is that coordinate for the first block
  coordinate and `p`; its entry (i, p, q, 1) the one for the second block coordinate and `q`.
-/
import proofs.«168420_j48112223650319_1_alg».proof.Proof.RefDefs
import Idealize.ShloMosaic.Lib.ValueIdx
import Idealize.ShloMosaic.Lib.Pipeline.Value

noncomputable section

namespace Cert.ReferenceIdeal.IdxRead

open Cert.ReferenceIdeal Cert.ReferenceIdeal.RefRun Idealize.ShloMosaic Idealize.ShloMosaic.ValueIdx

/-- 32·B + p as a 32-bit word. -/
def raw (B : BitVec 32) (p : Fin 32) : BitVec 32 := IntOp.addi (IntOp.muli B 32#32) (BitVec.ofNat 32 p.val)

/-- The coordinate of offset `p` in the block at block coordinate `B`: 32·B + p, plus 4096 when that is negative. -/
def pos (B : BitVec 32) (p : Fin 32) : BitVec 32 :=
  Scalar.select (IntOp.cmpi .slt (raw B p) 0#32) (IntOp.addi (raw B p) 4096#32) (raw B p)

theorem rowRaw_apply (r : IVec S8192 32) (i : Fin 8192) (p : Fin 32) :
    rowRaw r (ix3 i p (0 : Fin 1)) = raw (r (ix1 i)) p := by
  unfold rowRaw raw
  show IntOp.addi (broadcastInDim S8192x32x1 _ _ _ (ix3 i p (0 : Fin 1))) (broadcastInDim S8192x32x1 _ _ _ (ix3 i p (0 : Fin 1))) = _
  rw [broadcastInDim_apply _ _ _ (ix3 i p (0 : Fin 1)) (ix3 i (0 : Fin 1) (0 : Fin 1))
      (fun a => by match a with | ⟨0, _⟩ => rfl | ⟨1, _⟩ => rfl | ⟨2, _⟩ => rfl),
    broadcastInDim_apply _ _ _ (ix3 i p (0 : Fin 1)) (ix3 (0 : Fin 1) p (0 : Fin 1))
      (fun a => by match a with | ⟨0, _⟩ => rfl | ⟨1, _⟩ => rfl | ⟨2, _⟩ => rfl)]
  show IntOp.addi (IntOp.muli (broadcastInDim S8192x1x1 _ _ r (ix3 i (0 : Fin 1) (0 : Fin 1))) 32#32)
      (broadcastInDim S1x32x1 _ _ (iotaInDim S32 32 0) (ix3 (0 : Fin 1) p (0 : Fin 1))) = _
  rw [broadcastInDim_apply _ _ r (ix3 i (0 : Fin 1) (0 : Fin 1)) (ix1 i)
      (fun a => by match a with | ⟨0, _⟩ => rfl),
    broadcastInDim_apply _ _ (iotaInDim S32 32 0) (ix3 (0 : Fin 1) p (0 : Fin 1)) (ix1 p)
      (fun a => by match a with | ⟨0, _⟩ => rfl)]
  rfl

theorem colRaw_apply (c : IVec S8192 32) (i : Fin 8192) (q : Fin 32) :
    colRaw c (ix3 i (0 : Fin 1) q) = raw (c (ix1 i)) q := by
  unfold colRaw raw
  show IntOp.addi (broadcastInDim S8192x1x32 _ _ _ (ix3 i (0 : Fin 1) q)) (broadcastInDim S8192x1x32 _ _ _ (ix3 i (0 : Fin 1) q)) = _
  rw [broadcastInDim_apply _ _ _ (ix3 i (0 : Fin 1) q) (ix3 i (0 : Fin 1) (0 : Fin 1))
      (fun a => by match a with | ⟨0, _⟩ => rfl | ⟨1, _⟩ => rfl | ⟨2, _⟩ => rfl),
    broadcastInDim_apply _ _ _ (ix3 i (0 : Fin 1) q) (ix3 (0 : Fin 1) (0 : Fin 1) q)
      (fun a => by match a with | ⟨0, _⟩ => rfl | ⟨1, _⟩ => rfl | ⟨2, _⟩ => rfl)]
  show IntOp.addi (IntOp.muli (broadcastInDim S8192x1x1 _ _ c (ix3 i (0 : Fin 1) (0 : Fin 1))) 32#32)
      (broadcastInDim S1x1x32 _ _ (iotaInDim S32 32 0) (ix3 (0 : Fin 1) (0 : Fin 1) q)) = _
  rw [broadcastInDim_apply _ _ c (ix3 i (0 : Fin 1) (0 : Fin 1)) (ix1 i)
      (fun a => by match a with | ⟨0, _⟩ => rfl),
    broadcastInDim_apply _ _ (iotaInDim S32 32 0) (ix3 (0 : Fin 1) (0 : Fin 1) q) (ix1 q)
      (fun a => by match a with | ⟨0, _⟩ => rfl)]
  rfl

theorem rowWrap_apply (r : IVec S8192 32) (i : Fin 8192) (p : Fin 32) :
    rowWrap r (ix3 i p (0 : Fin 1)) = pos (r (ix1 i)) p := by
  unfold rowWrap pos
  show Scalar.select (IntOp.cmpi .slt (rowRaw r (ix3 i p (0 : Fin 1))) 0#32)
      (IntOp.addi (rowRaw r (ix3 i p (0 : Fin 1))) 4096#32) (rowRaw r (ix3 i p (0 : Fin 1))) = _
  rw [rowRaw_apply]

theorem colWrap_apply (c : IVec S8192 32) (i : Fin 8192) (q : Fin 32) :
    colWrap c (ix3 i (0 : Fin 1) q) = pos (c (ix1 i)) q := by
  unfold colWrap pos
  show Scalar.select (IntOp.cmpi .slt (colRaw c (ix3 i (0 : Fin 1) q)) 0#32)
      (IntOp.addi (colRaw c (ix3 i (0 : Fin 1) q)) 4096#32) (colRaw c (ix3 i (0 : Fin 1) q)) = _
  rw [colRaw_apply]

/-- The table's first component at (i, p, q): the coordinate for the first block coordinate and `p`. -/
theorem idxOf_zero (r c : IVec S8192 32) (i : Fin 8192) (p q : Fin 32) :
    idxOf r c (ix4 i p q (0 : Fin 2)) = pos (r (ix1 i)) p := by
  unfold idxOf
  rw [concatenate_pair_apply_left (s₁ := S8192x32x32x1) (s₂ := S8192x32x32x1) (3 : Fin 4) _ _ _ (ix4 i p q (0 : Fin 2)) rfl (ix4 i p q (0 : Fin 1))
      (fun b => by match b with | ⟨0, _⟩ => rfl | ⟨1, _⟩ => rfl | ⟨2, _⟩ => rfl | ⟨3, _⟩ => rfl)]
  rw [broadcastInDim_apply _ _ _ (ix4 i p q (0 : Fin 1)) (ix3 i p q)
      (fun a => by match a with | ⟨0, _⟩ => rfl | ⟨1, _⟩ => rfl | ⟨2, _⟩ => rfl),
    broadcastInDim_apply _ _ _ (ix3 i p q) (ix3 i p (0 : Fin 1))
      (fun a => by match a with | ⟨0, _⟩ => rfl | ⟨1, _⟩ => rfl | ⟨2, _⟩ => rfl)]
  exact rowWrap_apply r i p

/-- The table's second component at (i, p, q): the coordinate for the second block coordinate and `q`. -/
theorem idxOf_one (r c : IVec S8192 32) (i : Fin 8192) (p q : Fin 32) :
    idxOf r c (ix4 i p q (1 : Fin 2)) = pos (c (ix1 i)) q := by
  unfold idxOf
  rw [concatenate_pair_apply_right (s₁ := S8192x32x32x1) (s₂ := S8192x32x32x1) (3 : Fin 4) _ _ _ (ix4 i p q (1 : Fin 2)) rfl rfl (ix4 i p q (0 : Fin 1))
      (fun b hb => by
        match b with
        | ⟨0, _⟩ => rfl
        | ⟨1, _⟩ => rfl
        | ⟨2, _⟩ => rfl
        | ⟨3, _⟩ => exact absurd rfl hb)
      rfl]
  rw [broadcastInDim_apply _ _ _ (ix4 i p q (0 : Fin 1)) (ix3 i p q)
      (fun a => by match a with | ⟨0, _⟩ => rfl | ⟨1, _⟩ => rfl | ⟨2, _⟩ => rfl),
    broadcastInDim_apply _ _ _ (ix3 i p q) (ix3 i (0 : Fin 1) q)
      (fun a => by match a with | ⟨0, _⟩ => rfl | ⟨1, _⟩ => rfl | ⟨2, _⟩ => rfl)]
  exact colWrap_apply c i q

end Cert.ReferenceIdeal.IdxRead

end
-- ==== Proof.LibRowScatter.lean ====
/-
  A scatter of rows with addition, read at an index; and two such scatters fused into one.

  The operand is an N × C array, the updates an E × C array, and update row e is added into the operand row
  that the e-th scatter index names (read signed, not clamped; a row outside the operand is dropped). Read at
  (n, k), the result is the operand's entry plus the sum of the updates' k-th column over the rows e whose
  index is n.

  Fusing: scattering the 2E rows "u followed by −u" by the indices "r followed by s" gives, at every entry,
  the scatter of u by r MINUS the scatter of u by s — provided the entries of u are real numbers: negation
  does not distribute over a sum of extended reals that contains both infinities.

  General: nothing here mentions a program.
-/
import Idealize.ShloMosaic.PureOps.Ideal
import Idealize.ShloMosaic.Lib.ValueIdx

noncomputable section

open scoped BigOperators

namespace Cert.LibRowScatter

open Idealize.ShloMosaic Idealize.ShloMosaic.ValueIdx Finset

/-! ## Where an update lands, for any dimension numbers -/

/-- An update lands at `i` exactly when, on every operand axis, window start plus window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have h1 := congrArg (fun f => (f a).val) hi
      simp only at h1
      have h2 := h a
      omega
    · intro hi
      funext a
      apply Fin.ext
      have h1 := hi a
      simp only
      omega
  · rename_i h
    constructor
    · intro hi; exact absurd hi (by simp)
    · intro hi
      exfalso; apply h
      intro a
      have h1 := hi a
      have h2 := (i a).isLt
      omega

/-! ## Rows -/

/-- The dimension numbers of a scatter of rows: operand N × C, scatter indices E × 1, updates E × C; the
    updates' second axis is the window, the operand's first axis is the one indexed. -/
abbrev rowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N C E w : Nat} (wf : ScatterDims.WF ⟨2, ![N, C]⟩ ⟨2, ![E, 1]⟩ ⟨2, ![E, C]⟩ [1] [0] [0] 1)

/-- Where the scatter indices hold update row `e`'s index. -/
abbrev rowAt (e : Fin E) : (⟨2, ![E, 1]⟩ : Shape).Idx := ix2 e (0 : Fin 1)

theorem start_zero (e : Fin E) (k : Fin C) (idx : IVec ⟨2, ![E, 1]⟩ w) :
    (rowDims N C E wf).start (ix2 e k) idx 0 = (idx (rowAt e)).toInt := by
  unfold ScatterDims.start
  rw [dif_pos (show (0 : Fin 2) ∈ (rowDims N C E wf).scatterDimsToOperandDims from List.mem_singleton.mpr rfl)]
  have hsi : (rowDims N C E wf).siIdx (ix2 e k) ⟨List.idxOf (0 : Fin 2) (rowDims N C E wf).scatterDimsToOperandDims,
      List.idxOf_lt_length_iff.2 (List.mem_singleton.mpr rfl)⟩ = rowAt e := by
    funext b; refine Fin.ext ?_
    match b with
    | ⟨0, _⟩ => rfl
    | ⟨1, _⟩ => rfl
  rw [hsi]

theorem start_one (e : Fin E) (k : Fin C) (idx : IVec ⟨2, ![E, 1]⟩ w) :
    (rowDims N C E wf).start (ix2 e k) idx 1 = 0 := by
  unfold ScatterDims.start
  have h : ¬ (1 : Fin 2) ∈ (rowDims N C E wf).scatterDimsToOperandDims :=
    show ¬ (1 : Fin 2) ∈ ([0] : List (Fin 2)) by decide
  rw [dif_neg h]

theorem window_zero (e : Fin E) (k : Fin C) : (rowDims N C E wf).window (ix2 e k) 0 = 0 := by
  unfold ScatterDims.window
  have h : ¬ (0 : Fin 2) ∈ (rowDims N C E wf).sKept :=
    show ¬ (0 : Fin 2) ∈ (List.finRange 2).filter (· ∉ ([0] : List (Fin 2))) by decide
  rw [dif_neg h]

theorem window_one (e : Fin E) (k : Fin C) : (rowDims N C E wf).window (ix2 e k) 1 = k.val := by
  unfold ScatterDims.window
  have h : (1 : Fin 2) ∈ (rowDims N C E wf).sKept :=
    show (1 : Fin 2) ∈ (List.finRange 2).filter (· ∉ ([0] : List (Fin 2))) by decide
  rw [dif_pos h]
  rfl

/-- Update entry (e, k) lands at (n, k') exactly when row e's index is n and the columns agree. -/
theorem resultIdx?_rows (e : Fin E) (k : Fin C) (idx : IVec ⟨2, ![E, 1]⟩ w) (n : Fin N) (k' : Fin C) :
    (rowDims N C E wf).resultIdx? (ix2 e k) idx = some (ix2 n k') ↔ (idx (rowAt e)).toInt = (n.val : Int) ∧ k = k' := by
  rw [resultIdx?_eq_some_iff, Fin.forall_fin_two, start_zero, start_one, window_zero, window_one]
  constructor
  · rintro ⟨h0, h1⟩
    refine ⟨by simpa using h0, Fin.ext ?_⟩
    have : ((k.val : Int)) = ((k'.val : Nat) : Int) := by simpa using h1
    exact_mod_cast this
  · rintro ⟨h0, rfl⟩
    exact ⟨by simpa using h0, by simp⟩

/-- THE SCATTER READ AT (n, k): the operand's entry plus the k-th column of the updates summed over the rows
    whose index is n. -/
theorem hostScatterAdd_rows_apply (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowDims N C E wf) x idx upd (ix2 n k)
      = x (ix2 n k) + ∑ e ∈ univ.filter (fun e : Fin E => (idx (rowAt e)).toInt = (n.val : Int)), upd (ix2 e k) := by
  unfold Ideal.hostScatterAdd
  congr 1
  rw [Finset.sum_filter, sum_idx2, Finset.sum_filter]
  refine Finset.sum_congr rfl fun e _ => ?_
  simp only [resultIdx?_rows]
  by_cases h : (idx (rowAt e)).toInt = (n.val : Int)
  · simp only [h, true_and, if_true]
    rw [Finset.sum_ite_eq' Finset.univ k (fun c => upd (ix2 e c)), if_pos (Finset.mem_univ k)]
  · simp only [h, false_and, if_false, Finset.sum_const_zero]

end Rows

/-! ## Sums of real numbers among the extended reals -/

/-- The inclusion of the reals carries a finite sum to the sum of the inclusions. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Negation distributes over a finite sum of real numbers. -/
theorem sum_neg_coe {ι : Type} (s : Finset ι) (f : ι → ℝ) :
    ∑ i ∈ s, -((f i : ℝ) : EReal) = -∑ i ∈ s, ((f i : ℝ) : EReal) := by
  rw [← coe_sum, ← EReal.coe_neg, ← Finset.sum_neg_distrib, coe_sum]
  simp only [EReal.coe_neg]

/-! ## Two scatters in one -/

/-- THE FUSED SUM. Over 2E rows whose indices are `ρ` then `σ` and whose values are `υ` then `−υ` (`υ` real), the
    rows indexed `n` sum to: the rows of `υ` that `ρ` sends to `n`, minus the rows of `υ` that `σ` sends to `n`. -/
theorem sum_fused {E E2 : Nat} (hE : E2 = E + E) (n : Int) (ρ σ : Fin E → Int) (υ : Fin E → ℝ)
    (ρ2 : Fin E2 → Int) (υ2 : Fin E2 → EReal)
    (hl : ∀ (e : Fin E2) (h : e.val < E), ρ2 e = ρ ⟨e.val, h⟩ ∧ υ2 e = ((υ ⟨e.val, h⟩ : ℝ) : EReal))
    (hr : ∀ (e : Fin E2) (h : E ≤ e.val), ρ2 e = σ ⟨e.val - E, by have := e.isLt; omega⟩
      ∧ υ2 e = -((υ ⟨e.val - E, by have := e.isLt; omega⟩ : ℝ) : EReal)) :
    ∑ e ∈ univ.filter (fun e => ρ2 e = n), υ2 e
      = (∑ e ∈ univ.filter (fun e => ρ e = n), ((υ e : ℝ) : EReal))
        - ∑ e ∈ univ.filter (fun e => σ e = n), ((υ e : ℝ) : EReal) := by
  subst hE
  rw [Finset.sum_filter, Fin.sum_univ_add, sub_eq_add_neg, ← sum_neg_coe, Finset.sum_filter, Finset.sum_filter]
  congr 1
  · refine Finset.sum_congr rfl fun e _ => ?_
    obtain ⟨h1, h2⟩ := hl (Fin.castAdd E e) (by simp)
    rw [h1, h2]
    rfl
  · refine Finset.sum_congr rfl fun e _ => ?_
    obtain ⟨h1, h2⟩ := hr (Fin.natAdd E e) (by simp)
    rw [h1, h2]
    have he : (⟨(Fin.natAdd E e).val - E, by simp⟩ : Fin E) = e := Fin.ext (by simp)
    simp only [he]

end Cert.LibRowScatter

end
-- ==== Proof.SetDims.lean ====
/-
  Where an update of the block scatter lands.

  The operand is a 4096×4096 array, the updates an 8192×32×32 array, the scatter indices an 8192×32×32×2
  table: update (i, p, q) is written at the element whose two coordinates are the table's entries
  (i, p, q, 0) and (i, p, q, 1), read as signed integers; there are no window axes. So update (i, p, q)
  lands at `z` exactly when those two entries are `z`'s two coordinates.
-/
import proofs.«168420_j48112223650319_1_alg».proof.Proof.LibRowScatter
import Idealize.ShloMosaic.PureOps.Dims
import Idealize.ShloMosaic.Lib.ValueIdx

namespace Cert.SetDims

open Idealize.ShloMosaic Idealize.ShloMosaic.ValueIdx

abbrev SM : Shape := ⟨2, ![4096, 4096]⟩
abbrev SI : Shape := ⟨4, ![8192, 32, 32, 2]⟩
abbrev SU : Shape := ⟨3, ![8192, 32, 32]⟩

/-- The block scatter's dimension numbers: both operand axes are indexed, nothing is a window. -/
abbrev setDims (wf : ScatterDims.WF SM SI SU [] [0, 1] [0, 1] 3) : ScatterDims SM SI SU where
  updateWindowDims := []
  insertedWindowDims := [0, 1]
  scatterDimsToOperandDims := [0, 1]
  indexVectorDim := 3
  wf := wf

variable (wf : ScatterDims.WF SM SI SU [] [0, 1] [0, 1] 3) {w : Nat}

theorem start_zero (i : Fin 8192) (p q : Fin 32) (idx : IVec SI w) :
    (setDims wf).start (ix3 i p q) idx 0 = (idx (ix4 i p q (0 : Fin 2))).toInt := by
  unfold ScatterDims.start
  have hm : (0 : Fin 2) ∈ (setDims wf).scatterDimsToOperandDims := by
    show (0 : Fin 2) ∈ ([0, 1] : List (Fin 2)); decide
  rw [dif_pos hm]
  have hsi : (setDims wf).siIdx (ix3 i p q) ⟨List.idxOf (0 : Fin 2) (setDims wf).scatterDimsToOperandDims,
      List.idxOf_lt_length_iff.2 hm⟩ = ix4 i p q (0 : Fin 2) := by
    funext b; refine Fin.ext ?_
    match b with
    | ⟨0, _⟩ => rfl
    | ⟨1, _⟩ => rfl
    | ⟨2, _⟩ => rfl
    | ⟨3, _⟩ => rfl
  rw [hsi]

theorem start_one (i : Fin 8192) (p q : Fin 32) (idx : IVec SI w) :
    (setDims wf).start (ix3 i p q) idx 1 = (idx (ix4 i p q (1 : Fin 2))).toInt := by
  unfold ScatterDims.start
  have hm : (1 : Fin 2) ∈ (setDims wf).scatterDimsToOperandDims := by
    show (1 : Fin 2) ∈ ([0, 1] : List (Fin 2)); decide
  rw [dif_pos hm]
  have hsi : (setDims wf).siIdx (ix3 i p q) ⟨List.idxOf (1 : Fin 2) (setDims wf).scatterDimsToOperandDims,
      List.idxOf_lt_length_iff.2 hm⟩ = ix4 i p q (1 : Fin 2) := by
    funext b; refine Fin.ext ?_
    match b with
    | ⟨0, _⟩ => rfl
    | ⟨1, _⟩ => rfl
    | ⟨2, _⟩ => rfl
    | ⟨3, _⟩ => rfl
  rw [hsi]

theorem window_eq (j : SU.Idx) (a : Fin 2) : (setDims wf).window j a = 0 := by
  unfold ScatterDims.window
  have h : ¬ a ∈ (setDims wf).sKept := by
    show ¬ a ∈ (List.finRange 2).filter (· ∉ ([0, 1] : List (Fin 2)))
    revert a; decide
  rw [dif_neg h]

/-- Update (i, p, q) lands at `z` exactly when the table's two entries for it are `z`'s coordinates. -/
theorem resultIdx?_iff (i : Fin 8192) (p q : Fin 32) (idx : IVec SI w) (z : SM.Idx) :
    (setDims wf).resultIdx? (ix3 i p q) idx = some z ↔
      (idx (ix4 i p q (0 : Fin 2))).toInt = ((z 0).val : Int) ∧ (idx (ix4 i p q (1 : Fin 2))).toInt = ((z 1).val : Int) := by
  rw [Cert.LibRowScatter.resultIdx?_eq_some_iff, Fin.forall_fin_two, start_zero, start_one, window_eq, window_eq]
  simp only [Nat.cast_zero, add_zero]

end Cert.SetDims
-- ==== Proof.LibScatterSet.lean ====
/-
  A host scatter whose body returns the update ("set"), read at one element.

  The scatter folds over the update indices in row-major order; each update that lands inside the operand
  overwrites the element it lands on. So the result at an element `z` is the operand's element when no update
  lands on `z`, and otherwise the value of the LAST update (in row-major order) that lands on `z`.

  From this: two such scatters agree at `z₁` and `z₂` whenever a relabelling `σ` of the update indices carries
  the updates landing on `z₂` onto those landing on `z₁`, with equal values, and keeps their relative order.

  General: nothing here mentions a program.
-/
import Idealize.ShloMosaic.PureOps.ShapeOps
import Idealize.ShloMosaic.PureOps.Dims
import Mathlib.Data.Fintype.Pi
import Mathlib.Order.Fin.Basic
import Mathlib.Data.Finset.Max

namespace Cert.LibScatterSet

open Idealize.ShloMosaic

variable {α : Type} {s si u : Shape} {w : Nat}

/-- The elements of `Fin n` listed in increasing order. -/
theorem pairwise_lt_finRange (n : Nat) : (List.finRange n).Pairwise (· < ·) := by
  rw [List.pairwise_iff_getElem]
  intro i j hi hj hij
  simp only [List.getElem_finRange]
  exact hij

/-- One step of the fold: the update numbered `n` overwrites the element it lands on, if any. -/
def step (d : ScatterDims s si u) (idx : IVec si w) (upd : u.Idx → α) (r : s.Idx → α) (n : Fin u.numel) : s.Idx → α :=
  match d.resultIdx? (u.rowMajor.symm n) idx with
  | some i => fun i' => if i' = i then (fun _ b => b) (r i) (upd (u.rowMajor.symm n)) else r i'
  | none => r

theorem scatter_eq_foldl (d : ScatterDims s si u) (x : s.Idx → α) (idx : IVec si w) (upd : u.Idx → α) :
    Host.scatter d (fun _ b => b) x idx upd = (List.finRange u.numel).foldl (step d idx upd) x := rfl

theorem step_miss (d : ScatterDims s si u) (idx : IVec si w) (upd : u.Idx → α) (r : s.Idx → α) (n : Fin u.numel)
    (z : s.Idx) (h : d.resultIdx? (u.rowMajor.symm n) idx ≠ some z) : step d idx upd r n z = r z := by
  unfold step
  cases hres : d.resultIdx? (u.rowMajor.symm n) idx with
  | none => rfl
  | some i =>
    have hz : ¬ z = i := fun e => h (by rw [hres, e])
    show (if z = i then _ else r z) = r z
    rw [if_neg hz]

theorem step_hit (d : ScatterDims s si u) (idx : IVec si w) (upd : u.Idx → α) (r : s.Idx → α) (n : Fin u.numel)
    (z : s.Idx) (h : d.resultIdx? (u.rowMajor.symm n) idx = some z) :
    step d idx upd r n z = upd (u.rowMajor.symm n) := by
  unfold step
  rw [h]
  show (if z = z then upd (u.rowMajor.symm n) else r z) = _
  rw [if_pos rfl]

/-- Updates none of which lands on `z` leave `z` as it was. -/
theorem foldl_miss (d : ScatterDims s si u) (idx : IVec si w) (upd : u.Idx → α) (z : s.Idx) (L : List (Fin u.numel))
    (h : ∀ n ∈ L, d.resultIdx? (u.rowMajor.symm n) idx ≠ some z) (r : s.Idx → α) :
    L.foldl (step d idx upd) r z = r z := by
  induction L generalizing r with
  | nil => rfl
  | cons a L ih =>
    rw [List.foldl_cons, ih (fun n hn => h n (List.mem_cons_of_mem _ hn))]
    exact step_miss d idx upd r a z (h a List.mem_cons_self)

/-- Over an increasing list of updates, the last one that lands on `z` decides `z`. -/
theorem foldl_last (d : ScatterDims s si u) (idx : IVec si w) (upd : u.Idx → α) (z : s.Idx) (L : List (Fin u.numel))
    (hs : L.Pairwise (· < ·)) (a : Fin u.numel) (ha : a ∈ L) (hit : d.resultIdx? (u.rowMajor.symm a) idx = some z)
    (hlast : ∀ b ∈ L, a < b → d.resultIdx? (u.rowMajor.symm b) idx ≠ some z) (r : s.Idx → α) :
    L.foldl (step d idx upd) r z = upd (u.rowMajor.symm a) := by
  induction L generalizing r with
  | nil => exact absurd ha (by simp)
  | cons b L ih =>
    rw [List.pairwise_cons] at hs
    rw [List.foldl_cons]
    rcases List.mem_cons.1 ha with hab | haL
    · subst hab
      rw [foldl_miss d idx upd z L (fun n hn => hlast n (List.mem_cons_of_mem _ hn) (hs.1 n hn))]
      exact step_hit d idx upd r a z hit
    · exact ih hs.2 haL (fun c hc hac => hlast c (List.mem_cons_of_mem _ hc) hac) _

/-- No update lands on `z`: the result there is the operand's element. -/
theorem scatter_set_of_none (d : ScatterDims s si u) (x : s.Idx → α) (idx : IVec si w) (upd : u.Idx → α) (z : s.Idx)
    (h : ∀ j, d.resultIdx? j idx ≠ some z) : Host.scatter d (fun _ b => b) x idx upd z = x z := by
  rw [scatter_eq_foldl]
  exact foldl_miss d idx upd z _ (fun n _ => h _) x

/-- Update `j` lands on `z` and no later update does: the result there is update `j`'s value. -/
theorem scatter_set_of_last (d : ScatterDims s si u) (x : s.Idx → α) (idx : IVec si w) (upd : u.Idx → α) (z : s.Idx)
    (j : u.Idx) (hit : d.resultIdx? j idx = some z)
    (hlast : ∀ j', u.rowMajor j < u.rowMajor j' → d.resultIdx? j' idx ≠ some z) :
    Host.scatter d (fun _ b => b) x idx upd z = upd j := by
  rw [scatter_eq_foldl]
  have h := foldl_last d idx upd z (List.finRange u.numel) (pairwise_lt_finRange _) (u.rowMajor j) (List.mem_finRange _)
    (by rw [Equiv.symm_apply_apply]; exact hit)
    (fun b _ hb => hlast (u.rowMajor.symm b) (by rw [Equiv.apply_symm_apply]; exact hb)) x
  rw [h, Equiv.symm_apply_apply]

/-- Two "set" scatters agree at `z₁` and `z₂` when a relabelling `σ` of the update indices, onto, matches the
    updates landing on `z₂` with those landing on `z₁`, with equal values, keeping the order of the ones that land. -/
theorem scatter_set_transport {s₁ si₁ u₁ s₂ si₂ u₂ : Shape} {w₁ w₂ : Nat}
    (d₁ : ScatterDims s₁ si₁ u₁) (d₂ : ScatterDims s₂ si₂ u₂)
    (x₁ : s₁.Idx → α) (idx₁ : IVec si₁ w₁) (upd₁ : u₁.Idx → α)
    (x₂ : s₂.Idx → α) (idx₂ : IVec si₂ w₂) (upd₂ : u₂.Idx → α)
    (z₁ : s₁.Idx) (z₂ : s₂.Idx) (σ : u₂.Idx → u₁.Idx) (hσ : Function.Surjective σ)
    (hhit : ∀ j, d₁.resultIdx? (σ j) idx₁ = some z₁ ↔ d₂.resultIdx? j idx₂ = some z₂)
    (hupd : ∀ j, d₂.resultIdx? j idx₂ = some z₂ → upd₁ (σ j) = upd₂ j)
    (hord : ∀ j j', d₂.resultIdx? j idx₂ = some z₂ → d₂.resultIdx? j' idx₂ = some z₂ →
      u₂.rowMajor j < u₂.rowMajor j' → u₁.rowMajor (σ j) < u₁.rowMajor (σ j'))
    (hx : x₁ z₁ = x₂ z₂) :
    Host.scatter d₁ (fun _ b => b) x₁ idx₁ upd₁ z₁ = Host.scatter d₂ (fun _ b => b) x₂ idx₂ upd₂ z₂ := by
  classical
  by_cases hex : ∃ j, d₂.resultIdx? j idx₂ = some z₂
  · obtain ⟨j₀, hj₀⟩ := hex
    have hne : (Finset.univ.filter fun j => d₂.resultIdx? j idx₂ = some z₂).Nonempty :=
      ⟨j₀, by simp only [Finset.mem_filter, Finset.mem_univ, true_and]; exact hj₀⟩
    obtain ⟨j, hjm, hmax⟩ := Finset.exists_max_image _ (fun j => u₂.rowMajor j) hne
    have hj : d₂.resultIdx? j idx₂ = some z₂ := by
      simpa only [Finset.mem_filter, Finset.mem_univ, true_and] using hjm
    have hmax' : ∀ j', d₂.resultIdx? j' idx₂ = some z₂ → u₂.rowMajor j' ≤ u₂.rowMajor j := fun j' h' =>
      hmax j' (by simp only [Finset.mem_filter, Finset.mem_univ, true_and]; exact h')
    rw [scatter_set_of_last d₂ x₂ idx₂ upd₂ z₂ j hj (fun j' hlt h' => absurd (hmax' j' h') (not_le.2 hlt))]
    rw [scatter_set_of_last d₁ x₁ idx₁ upd₁ z₁ (σ j) ((hhit j).2 hj) ?_, hupd j hj]
    intro j₁ hlt h₁
    obtain ⟨j', rfl⟩ := hσ j₁
    have h' := (hhit j').1 h₁
    rcases lt_or_eq_of_le (hmax' j' h') with hl | he
    · exact absurd (hord j' j h' hj hl) (not_lt.2 (le_of_lt hlt))
    · have : j' = j := u₂.rowMajor.injective he
      subst this
      exact absurd hlt (lt_irrefl _)
  · have h₂ : ∀ j, d₂.resultIdx? j idx₂ ≠ some z₂ := fun j h => hex ⟨j, h⟩
    have h₁ : ∀ j, d₁.resultIdx? j idx₁ ≠ some z₁ := fun j₁ h => by
      obtain ⟨j', rfl⟩ := hσ j₁
      exact h₂ j' ((hhit j').1 h)
    rw [scatter_set_of_none d₁ x₁ idx₁ upd₁ z₁ h₁, scatter_set_of_none d₂ x₂ idx₂ upd₂ z₂ h₂, hx]

end Cert.LibScatterSet
-- ==== Proof.BlockSwap.lean ====
/-
  Scattering the transposed blocks at swapped block coordinates gives the transposed matrix.

  Block `i` is written at block coordinates (A i, B i): its element (p, q) goes to row  wrap (32·A i + p)  and
  column  wrap (32·B i + q).  Scatter the blocks `wd` at (B, A), and scatter the blocks transposed within
  themselves at (A, B): element (p, q) of a transposed block is element (q, p) of the block and goes to row
  wrap (32·A i + p), column wrap (32·B i + q) — the mirror image of where the first scatter puts element (q, p).
  So the update (i, p, q) of one scatter and the update (i, q, p) of the other carry the same value to mirrored
  places. Where several blocks collide the later block wins in both, because inside ONE block different elements
  go to different places (`p ↦ wrap (32·B + p)` is one-to-one on 0 ≤ p < 32), so the order among colliding
  updates is the order of their block numbers, which the relabelling keeps.
-/
import proofs.«168420_j48112223650319_1_alg».proof.Proof.IdxRead
import proofs.«168420_j48112223650319_1_alg».proof.Proof.SetDims
import proofs.«168420_j48112223650319_1_alg».proof.Proof.LibScatterSet

noncomputable section

namespace Cert.ReferenceIdeal.BlockSwap

open Cert.ReferenceIdeal Cert.ReferenceIdeal.RefRun Cert.ReferenceIdeal.IdxRead Cert.SetDims
open Idealize.ShloMosaic Idealize.ShloMosaic.ValueIdx

/-- Inside one block, different offsets have different coordinates: 32·B + p, with 4096 added or not, never
    meets 32·B + p' for another offset p' < 32 (the two differ by less than 32, or by 4096 ± less than 32). -/
theorem pos_inj (B : BitVec 32) (p p' : Fin 32) (h : pos B p = pos B p') : p = p' := by
  unfold pos raw Scalar.select IntOp.cmpi IntOp.addi IntOp.muli at h
  generalize B * 32#32 = v at h
  apply Fin.ext
  have hp := p.isLt
  have hp' := p'.isLt
  split_ifs at h <;> bv_omega

variable (wf : ScatterDims.WF SM SI SU [] [0, 1] [0, 1] 3)

/-- Update (i, p, q) lands at `z` exactly when the wrapped coordinates of (A i, p) and (B i, q) are `z`'s. -/
theorem hit_iff (a b : IVec S8192 32) (i : Fin 8192) (p q : Fin 32) (z : SM.Idx) :
    (setDims wf).resultIdx? (ix3 i p q) (idxOf a b) = some z ↔
      (pos (a (ix1 i)) p).toInt = ((z 0).val : Int) ∧ (pos (b (ix1 i)) q).toInt = ((z 1).val : Int) := by
  rw [resultIdx?_iff, idxOf_zero, idxOf_one]

/-- The row-major position of update (i, p, q). -/
theorem rowMajor_ix3 (i : Fin 8192) (p q : Fin 32) :
    (SU.rowMajor (ix3 i p q)).val = (i.val * 32 + p.val) * 32 + q.val :=
  Shape.rowMajor_val_three (ix3 i p q)

/-- Swapping the two offsets of an update index. -/
def swapPQ (j : SU.Idx) : SU.Idx := ix3 (n0 := 8192) (n1 := 32) (n2 := 32) (j 0) (j 2) (j 1)

theorem swapPQ_ix3 (i : Fin 8192) (p q : Fin 32) : swapPQ (ix3 i p q) = ix3 i q p := rfl

theorem scatter_swap {α : Type} (x₁ x₂ : SM.Idx → α) (a b : IVec S8192 32) (wd wdT : SU.Idx → α)
    (hT : ∀ (i : Fin 8192) (p q : Fin 32), wdT (ix3 i q p) = wd (ix3 i p q)) (k n : Fin 4096)
    (hx : x₁ (ix2 k n) = x₂ (ix2 n k)) :
    Host.scatter (setDims wf) (fun _ b => b) x₁ (idxOf a b) wdT (ix2 k n)
      = Host.scatter (setDims wf) (fun _ b => b) x₂ (idxOf b a) wd (ix2 n k) := by
  refine Cert.LibScatterSet.scatter_set_transport (setDims wf) (setDims wf) x₁ (idxOf a b) wdT x₂ (idxOf b a) wd
    (ix2 k n) (ix2 n k) swapPQ ?_ ?_ ?_ ?_ hx
  · intro j₁
    exact ⟨swapPQ j₁, (eq_ix3 j₁).symm⟩
  · intro j
    obtain ⟨i, p, q, rfl⟩ : ∃ (i : Fin 8192) (p q : Fin 32), j = ix3 i p q := ⟨j 0, j 1, j 2, eq_ix3 j⟩
    rw [swapPQ_ix3, hit_iff, hit_iff]
    exact and_comm
  · intro j _
    obtain ⟨i, p, q, rfl⟩ : ∃ (i : Fin 8192) (p q : Fin 32), j = ix3 i p q := ⟨j 0, j 1, j 2, eq_ix3 j⟩
    rw [swapPQ_ix3]
    exact hT i p q
  · intro j j' hj hj' hlt
    obtain ⟨i, p, q, rfl⟩ : ∃ (i : Fin 8192) (p q : Fin 32), j = ix3 i p q := ⟨j 0, j 1, j 2, eq_ix3 j⟩
    obtain ⟨i', p', q', rfl⟩ : ∃ (i : Fin 8192) (p q : Fin 32), j' = ix3 i p q := ⟨j' 0, j' 1, j' 2, eq_ix3 j'⟩
    rw [hit_iff] at hj hj'
    rw [swapPQ_ix3, swapPQ_ix3, Fin.lt_def, rowMajor_ix3, rowMajor_ix3]
    rw [Fin.lt_def, rowMajor_ix3, rowMajor_ix3] at hlt
    have hp := p.isLt; have hq := q.isLt; have hp' := p'.isLt; have hq' := q'.isLt
    by_cases hi : i = i'
    · subst hi
      have e1 : p = p' := pos_inj _ p p' (BitVec.eq_of_toInt_eq (hj.1.trans hj'.1.symm))
      have e2 : q = q' := pos_inj _ q q' (BitVec.eq_of_toInt_eq (hj.2.trans hj'.2.symm))
      subst e1; subst e2
      exact absurd hlt (lt_irrefl _)
    · have hv : i.val ≠ i'.val := fun e => hi (Fin.ext e)
      omega

end Cert.ReferenceIdeal.BlockSwap

end
-- ==== Proof.RefValue.lean ====
/-
  The reference's result read entry by entry at the ideal values: entry (r, n) is the sum over k of
  x (r, k) times the dense matrix's entry (n, k), plus b n. The contraction is the host's dot product
  over its one contracted axis, re-indexed by that axis's coordinate; its right operand is the dense
  matrix transposed; the bias is the vector laid along every row. The dense matrix itself is not opened.
-/
import proofs.«168420_j48112223650319_1_alg».proof.Proof.RefDefs
import proofs.«168420_j48112223650319_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx

/-- The contraction's dimension numbers: axis 1 of the left operand against axis 0 of the right. -/
local notation "D" => dot_S4096x4096_S4096x4096_S4096x4096_1_0_0_1_n_n

/-- The contraction index set is the 4096 positions of the contracted axis. -/
def kEquiv : (D).contr.Idx ≃ Fin 4096 := contrEquiv1 D 4096 rfl rfl

/-- At result entry (r, n) and contraction position k the left operand is read at (r, k). -/
theorem lhsIdx_eq (r n k : Fin 4096) : (D).lhsIdx (ix2 r n) (kEquiv.symm k) = ix2 r k := by
  funext a
  match a with
  | ⟨0, _⟩ => exact Fin.ext rfl
  | ⟨1, _⟩ =>
    exact Fin.ext (((D).lhsIdx_val_of_single (cl := (1 : Fin 2)) rfl (ix2 r n) (kEquiv.symm k)).trans
      (contrEquiv1_symm_val D 4096 rfl rfl k))

/-- At result entry (r, n) and contraction position k the right operand is read at (k, n). -/
theorem rhsIdx_eq (r n k : Fin 4096) : (D).rhsIdx (ix2 r n) (kEquiv.symm k) = ix2 k n := by
  funext a
  match a with
  | ⟨0, _⟩ =>
    exact Fin.ext (((D).rhsIdx_val_of_single (cr := (0 : Fin 2)) rfl (ix2 r n) (kEquiv.symm k)).trans
      (contrEquiv1_symm_val D 4096 rfl rfl k))
  | ⟨1, _⟩ => exact Fin.ext rfl

/-- The host's product of x with a matrix w at entry (r, n): the sum over k of x (r, k) * w (k, n). -/
theorem dot_apply (x w : FVec Ideal S4096x4096 .f32) (r n : Fin 4096) :
    Host.dotGeneral D none x w (ix2 r n) = ∑ k : Fin 4096, x (ix2 r k) * w (ix2 k n) := by
  simp only [Host.dotGeneral]
  rw [Ideal.dotGeneral_apply, ← Equiv.sum_comp kEquiv.symm]
  exact Finset.sum_congr rfl fun k _ => by rw [lhsIdx_eq, rhsIdx_eq]

/-- The bias laid along every row, read at (r, n), is b n. -/
theorem bias_apply (b : FVec Ideal S4096 .f32) (r n : Fin 4096) :
    broadcastInDim S4096x4096 ![0, 1] bcast_S1x4096_S4096x4096_0_1
      (broadcastInDim S1x4096 ![1] bcast_S4096_S1x4096_1 b) (ix2 r n) = b (ix1 n) := by
  rw [broadcastInDim_apply ![0, 1] bcast_S1x4096_S4096x4096_0_1 _ (ix2 r n) (ix2 (0 : Fin 1) n)
    (fun a => match a with | ⟨0, _⟩ => rfl | ⟨1, _⟩ => rfl)]
  exact broadcastInDim_apply ![1] bcast_S4096_S1x4096_1 b (ix2 (0 : Fin 1) n) (ix1 n)
    (fun a => match a with | ⟨0, _⟩ => rfl)

/-- The reference's result is the affine map of Spec.lean at the transposed dense matrix and the bias. -/
theorem out_eq (x : FVec Ideal S4096x4096 .f32) (wd : FVec Ideal S8192x32x32 .f32) (b : FVec Ideal S4096 .f32)
    (ids : IVec S8192 32) :
    RefRun.out (F := Ideal) x wd b ids
      = Cert.Spec.affineArr x (fun j => RefRun.dense (F := Ideal) wd ids (ix2 (j 1) (j 0))) (fun n => b (ix1 n)) := by
  funext i
  obtain ⟨r, n, rfl⟩ : ∃ r n : Fin 4096, i = ix2 r n := ⟨i 0, i 1, eq_ix2 i⟩
  rw [Cert.Spec.affineArr_apply]
  unfold RefRun.out Cert.Spec.affine
  rw [addf_apply, dot_apply, bias_apply]
  refine congrArg (· + b (ix1 n)) (Finset.sum_congr rfl fun k _ => ?_)
  rw [transpose_ix2_apply]

end Cert.ReferenceIdeal.RefValue

end
-- ==== Proof.Bridge.lean ====
/-
  The reference's result is the kernel's specification at the arrays the region finds.

  The reference computes  x · Wᵀ + b  with W the dense matrix scattered from the blocks at (block row, block column).
  The kernel's region finds, in its three windows, x itself, the matrix scattered from the blocks TRANSPOSED at
  (block column, block row), and b as one row; and scattering transposed blocks at swapped block coordinates gives
  the transposed matrix: entry (k, n) of the kernel's matrix is entry (n, k) of W. So both are the same affine map.
-/
import proofs.«168420_j48112223650319_1_alg».proof.Proof.Spec
import proofs.«168420_j48112223650319_1_alg».proof.Proof.KerHostXB
import proofs.«168420_j48112223650319_1_alg».proof.Proof.KerHostW
import proofs.«168420_j48112223650319_1_alg».proof.Proof.BlockSwap
import proofs.«168420_j48112223650319_1_alg».proof.Proof.RefValue

noncomputable section

namespace Cert.Bridge

open Idealize.ShloMosaic Idealize.ShloMosaic.TcCoe Idealize.SL.Sem Idealize.ShloMosaic.ValueIdx
open Cert.Spec

/-- The affine map depends on its three arguments entry by entry. -/
theorem affineArr_congr (x x' w w' : SMat.Idx → EReal) (b b' : Fin 4096 → EReal)
    (hx : ∀ r k : Fin 4096, x (ix2 r k) = x' (ix2 r k)) (hw : ∀ k n : Fin 4096, w (ix2 k n) = w' (ix2 k n))
    (hb : ∀ n, b n = b' n) : affineArr x w b = affineArr x' w' b' := by
  funext i
  obtain ⟨r, n, rfl⟩ : ∃ (r n : Fin 4096), i = ix2 r n := ⟨i 0, i 1, eq_ix2 i⟩
  rw [affineArr_apply, affineArr_apply]
  unfold affine
  rw [hb n]
  refine congrArg (· + b' n) (Finset.sum_congr rfl fun k _ => ?_)
  rw [hx r k, hw k n]

/-- A block transposed within itself, read at (i, q, p), is the block at (i, p, q). -/
theorem transpose_block (wd : Cert.KernelIdeal.S8192x32x32.Idx → EReal) (i : Fin 8192) (p q : Fin 32) :
    transpose Cert.KernelIdeal.S8192x32x32 [0, 2, 1] wd Cert.KernelIdeal.Gen.transposes_S8192x32x32_S8192x32x32_0_2_1 (ix3 i q p)
      = wd (ix3 i p q) :=
  transpose_apply _ _ _ (ix3 i q p) (ix3 i p q) (fun b => by match b with | ⟨0, _⟩ => rfl | ⟨1, _⟩ => rfl | ⟨2, _⟩ => rfl)

/-- Entry (k, n) of the matrix scattered from the transposed blocks at (block column, block row) is entry (n, k) of
    the matrix scattered from the blocks at (block row, block column). -/
theorem kernel_matrix_eq (wd : Cert.KernelIdeal.S8192x32x32.Idx → EReal) (ids : IVec Cert.KernelIdeal.S8192 32) (k n : Fin 4096) :
    Host.scatter (Cert.SetDims.setDims Cert.ReferenceIdeal.Gen.scatter_S4096x4096_S8192x32x32x2_S8192x32x32_n_01_01_3_wf) (fun _ b => b)
        (broadcastInDim Cert.KernelIdeal.S4096x4096 ![] Cert.KernelIdeal.Gen.bcast_S_S4096x4096
          (constant (F := Ideal) Cert.KernelIdeal.S_ .f32 0x00000000#32))
        (Cert.ReferenceIdeal.RefRun.idxOf (Cert.ReferenceIdeal.RefRun.blockCol ids) (Cert.ReferenceIdeal.RefRun.blockRow ids))
        (transpose Cert.KernelIdeal.S8192x32x32 [0, 2, 1] wd Cert.KernelIdeal.Gen.transposes_S8192x32x32_S8192x32x32_0_2_1) (ix2 k n)
      = Cert.ReferenceIdeal.RefRun.dense (F := Ideal) wd ids (ix2 n k) :=
  Cert.ReferenceIdeal.BlockSwap.scatter_swap Cert.ReferenceIdeal.Gen.scatter_S4096x4096_S8192x32x32x2_S8192x32x32_n_01_01_3_wf
    _ _ _ _ _ _ (transpose_block wd) k n rfl

open Cert.KernelIdeal in
/-- The same with the scatter's dimension numbers spelt as the kernel's program spells them. -/
theorem kernel_matrix_eq' (wd : S8192x32x32.Idx → EReal) (ids : IVec S8192 32) (k n : Fin 4096) :
    Host.scatter scatter_S4096x4096_S8192x32x32x2_S8192x32x32_n_01_01_3 (fun _ b => b)
        (broadcastInDim S4096x4096 ![] Gen.bcast_S_S4096x4096 (constant (F := Ideal) S_ .f32 0x00000000#32))
        (Cert.ReferenceIdeal.RefRun.idxOf (Cert.ReferenceIdeal.RefRun.blockCol ids) (Cert.ReferenceIdeal.RefRun.blockRow ids))
        (transpose S8192x32x32 [0, 2, 1] wd Gen.transposes_S8192x32x32_S8192x32x32_0_2_1) (ix2 k n)
      = Cert.ReferenceIdeal.RefRun.dense (F := Ideal) wd ids (ix2 n k) :=
  kernel_matrix_eq wd ids k n

open Cert.KernelIdeal in
/-- Entry (k, n) of the second window's array. -/
theorem V_w_apply (m : (ℓ : Loc nD τ sig) → Buf (Elt Ideal) ℓ) (c : Dev nD) (k n : Fin 4096) :
    (Gen.V m c main_v36 : S4096x4096.Idx → EReal) (ix2 k n)
      = Cert.ReferenceIdeal.RefRun.dense (F := Ideal) (m (c, Proc.tc.devRef main_arg1) : S8192x32x32.Idx → EReal)
          (m (c, Proc.tc.devRef main_arg3) : IVec S8192 32) (ix2 n k) :=
  (congrFun (Cert.KernelIdeal.KerHost.V_w m c) (ix2 k n)).trans
    ((truncf_apply (ψ := .bf16) _ Gen.bitsLt_bf16_f32 (ix2 k n)).trans (kernel_matrix_eq' _ _ k n))

open Cert.KernelIdeal in
/-- The reference's result on the kernel's arguments is the specification at the arrays the kernel's region finds. -/
theorem result_eq (m : (ℓ : Loc nD τ sig) → Buf (Elt Ideal) ℓ) (c : Dev nD) :
    Cert.ReferenceIdeal.RefRun.out (F := Ideal) (m (c, Proc.tc.devRef main_arg0)) (m (c, Proc.tc.devRef main_arg1))
        (m (c, Proc.tc.devRef main_arg2)) (m (c, Proc.tc.devRef main_arg3))
      = affineArr (Gen.V m c main_v35) (Gen.V m c main_v36) (fun n => Gen.V m c main_v37 (ix2 (0 : Fin 1) n)) := by
  rw [Cert.ReferenceIdeal.RefValue.out_eq]
  refine affineArr_congr _ _ _ _ _ _ (fun r k => ?_) (fun k n => ?_) (fun n => ?_)
  · exact (congrFun (Cert.KernelIdeal.KerHost.V_x m c) (ix2 r k)).symm
  · exact (V_w_apply m c k n).symm
  · exact (Cert.KernelIdeal.KerHost.V_b m c n).symm

end Cert.Bridge

end
-- ==== Proof.Claims.lean ====
/-
  The five claims.

  Both idealized programs compute the affine map  x · Wᵀ + b  on the extended reals, W the 4096×4096 matrix
  scattered from the 8192 blocks of 32×32 at the block positions the ids name.
  The kernel scatters the blocks transposed at swapped block coordinates, which gives Wᵀ, and multiplies in
  1024³ tiles, accumulating over the contracted axis in a scratch buffer and adding the bias after the last tile:
  a sum of 4096 terms taken in four consecutive runs of 1024, which on the extended reals (a commutative monoid
  under addition) is the sum itself. The reference scatters W, transposes it, contracts in one step and adds the bias.
  Nothing here needs the inputs to be finite. The word-level program's frame is generated whole, and the
  idealization rewrote nothing.
-/
import proofs.«168420_j48112223650319_1_alg».proof.Defs
import proofs.«168420_j48112223650319_1_alg».proof.Proof.Gen.Pre_finite_inputs
import proofs.«168420_j48112223650319_1_alg».proof.Proof.Gen.Kernel.Frame
import proofs.«168420_j48112223650319_1_alg».proof.Proof.Gen.KernelIdeal.Frame
import proofs.«168420_j48112223650319_1_alg».proof.Proof.KerValue
import proofs.«168420_j48112223650319_1_alg».proof.Proof.RefRun
import proofs.«168420_j48112223650319_1_alg».proof.Proof.Bridge

noncomputable section

namespace Cert.Proof.Claims

open Idealize.ShloMosaic Idealize.ShloMosaic.TcCoe Idealize.SL.Sem Idealize.ShloMosaic.ValueIdx

theorem frame_p : Cert.frame_Kernel := fun m ρ _ => Cert.Kernel.Gen.frame m ρ

theorem frame_pi : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both runs end at the affine map of the arrays the kernel's region finds: the kernel by its value, the
    reference because its result on agreeing arguments is that same map. -/
theorem algebraic : Cert.algebraic_KernelIdeal_ReferenceIdeal := by
  intro m ρ m' ρ' _ hagree
  refine ⟨_, Cert.KernelIdeal.KVal.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  exact Cert.Bridge.result_eq m c

end Cert.Proof.Claims

end
-- ==== Proof.lean ====
/-
  A block-sparse linear layer: x · Wᵀ + b, where W (4096×4096) is given by 8192 blocks of 32×32 and, for each block,
  an id naming its block row (id div 128) and block column (id mod 128).

  The kernel builds Wᵀ on the host by scattering each block, transposed, at (block column, block row), and multiplies
  x by it on a 4×4×4 grid of 1024³ tiles, accumulating over the contracted axis and adding b after the last tile.
  The reference scatters each block at (block row, block column), transposes, contracts once and adds b.
  On the extended reals the two are the same function of the four arguments, whatever the ids are — out of range,
  repeated or negative: an update outside the matrix is dropped by both scatters, and where blocks collide the block
  with the larger number wins in both (Proof/BlockSwap.lean, over Proof/LibScatterSet.lean); the tiled sum is the
  sum (Proof/KerSum.lean). The claims are assembled in Proof/Claims.lean.
-/
import proofs.«168420_j48112223650319_1_alg».proof.Defs
import proofs.«168420_j48112223650319_1_alg».proof.Proof.Gen.Kernel
import proofs.«168420_j48112223650319_1_alg».proof.Proof.Gen.Kernel.Skeleton
import proofs.«168420_j48112223650319_1_alg».proof.Proof.Gen.Kernel.Launch
import proofs.«168420_j48112223650319_1_alg».proof.Proof.Gen.Kernel.Points
import proofs.«168420_j48112223650319_1_alg».proof.Proof.Gen.Kernel.Frame
import proofs.«168420_j48112223650319_1_alg».proof.Proof.Gen.KernelIdeal
import proofs.«168420_j48112223650319_1_alg».proof.Proof.Gen.KernelIdeal.Skeleton
import proofs.«168420_j48112223650319_1_alg».proof.Proof.Gen.KernelIdeal.Launch
import proofs.«168420_j48112223650319_1_alg».proof.Proof.Gen.KernelIdeal.Points
import proofs.«168420_j48112223650319_1_alg».proof.Proof.Gen.KernelIdeal.Frame
import proofs.«168420_j48112223650319_1_alg».proof.Proof.Gen.KernelIdeal.Value
import proofs.«168420_j48112223650319_1_alg».proof.Proof.Gen.ReferenceIdeal
import proofs.«168420_j48112223650319_1_alg».proof.Proof.Gen.Pre_finite_inputs
import proofs.«168420_j48112223650319_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_p, Claims.frame_pi, Claims.frame_ri, Claims.preserves, Claims.algebraic⟩

end Cert.Proof

end
